-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S2048x2048 : Shape := ⟨2, ![2048, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S8x1024x2048 .f32) (main_arg1 : FVec F S2048x2048 .f32) (main_arg2 : FVec F S2048x2048 .f32) (main_arg3 : FVec F S2048x2048 .f32) (main_arg4 : FVec F S2048x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8x1024x2048 : Shape := ⟨3, ![8, 1024, 2048]⟩
abbrev S2048x2048 : Shape := ⟨2, ![2048, 2048]⟩
abbrev S8192x2048 : Shape := ⟨2, ![8192, 2048]⟩
abbrev S_ : Shape := ⟨0, ![]⟩
abbrev S256x2048 : Shape := ⟨2, ![256, 2048]⟩
abbrev S8x1024x1024 : Shape := ⟨3, ![8, 1024, 1024]⟩
abbrev S1x256x2048 : Shape := ⟨3, ![1, 256, 2048]⟩
abbrev S1x1024x2048 : Shape := ⟨3, ![1, 1024, 2048]⟩
abbrev S1x1024x256 : Shape := ⟨3, ![1, 1024, 256]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 21
  | .vmem => 22
  | .smem => 0
  | _ => 0

abbrev bufTy : (tb : Table) → Fin (tcTables nBuf tb) → BufTy
  | .hbm, ⟨0, _⟩ => ⟨S8x1024x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S2048x2048, .bf16⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S8x1024x2048, .bf16⟩
  | .hbm, ⟨17, _⟩ => ⟨S8x1024x2048, .bf16⟩
  | .hbm, ⟨18, _⟩ => ⟨S8x1024x2048, .bf16⟩
  | .hbm, ⟨19, _⟩ => ⟨S8x1024x2048, .f32⟩
  | .hbm, ⟨20, _⟩ => ⟨S8x1024x1024, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x1024x2048, .bf16⟩
  | .local _ .vmem, ⟨14, _⟩ => ⟨S1x1024x2048, .bf16⟩
  | .local _ .vmem, ⟨15, _⟩ => ⟨S1x1024x2048, .bf16⟩
  | .local _ .vmem, ⟨16, _⟩ => ⟨S1x1024x2048, .bf16⟩
  | .local _ .vmem, ⟨17, _⟩ => ⟨S2048x2048, .bf16⟩
  | .local _ .vmem, ⟨18, _⟩ => ⟨S1x256x2048, .f32⟩
  | .local _ .vmem, ⟨19, _⟩ => ⟨S1x256x2048, .f32⟩
  | .local _ .vmem, ⟨20, _⟩ => ⟨S1x1024x256, .f32⟩
  | .local _ .vmem, ⟨21, _⟩ => ⟨S1x1024x256, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S8x1024x2048_S8192x2048 : S8x1024x2048.ShapeCasts S8192x2048
  bitsLt_bf16_f32 : FTy.bits .bf16 < FTy.bits .f32
  bcast_S_S2048x2048 : S_.BroadcastsInDim S2048x2048 (![] : Fin 0 → Fin S2048x2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S256x2048_S256x2048_0_0 : (Rect.unit (s := S256x2048) ![0, 0] S256x2048.size inb_S256x2048_S256x2048_0_0).PackedRows (EltTy.packing .bf16)
  shapeCasts_S8192x2048_S8x1024x2048 : S8192x2048.ShapeCasts S8x1024x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  iota_S256x1024_d0_w32 : S256x1024.Iotas .tc 32 [0]
  iota_S256x1024_d1_w32 : S256x1024.Iotas .tc 32 [1]
  reduces_S256x1024_S256 : S256x1024.Reduces [1] S256
  shapeCasts_S256_S256x1 : S256.ShapeCasts S256x1
  broadcasts_S256x1_S256x1024 : S256x1.Broadcasts S256x1024
  shapeCasts_S256x2048_S1x256x2048 : S256x2048.ShapeCasts S1x256x2048
  transposes_S256x1024_p1_0_S1024x256 : S256x1024.Transposes [1, 0] S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S256x2048_S2048x2048_S256x2048_1_1_0_0_n_n_wf : DotDims.WF S256x2048 S2048x2048 S256x2048 [1] [1] [0] [0] [] []
  dot_S256x2048_S1024x2048_S256x1024_1_1_0_0_n_n_wf : DotDims.WF S256x2048 S1024x2048 S256x1024 [1] [1] [0] [0] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .bf16 = 32 ∨ (Rect.block (s := S8192x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .bf16 = 32 ∨ (Rect.block (s := S8192x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .bf16 = 32 ∨ (Rect.block (s := S8192x2048) S256x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S8x1024x2048.size a
  hwx1_0 : ∀ i : grid1.Coords, EltTy.bits .bf16 = 32 ∨ (Rect.block (s := S8x1024x2048) S1x256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S8x1024x2048.size a
  hwx1_1 : ∀ i : grid1.Coords, EltTy.bits .bf16 = 32 ∨ (Rect.block (s := S8x1024x2048) S1x1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S8x1024x2048.size a
  hwx1_2 : ∀ i : grid1.Coords, EltTy.bits .bf16 = 32 ∨ (Rect.block (s := S8x1024x2048) S1x1024x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S8x1024x2048.size a
  hwx1_4 : ∀ i : grid1.Coords, EltTy.bits .f32 = 32 ∨ (Rect.block (s := S8x1024x2048) S1x256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x256.size a ≤ S8x1024x1024.size a
  hwx1_5 : ∀ i : grid1.Coords, EltTy.bits .f32 = 32 ∨ (Rect.block (s := S8x1024x1024) S1x1024x256.size (cc1_transform_5 i) (hinb1_5 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S256x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S1x256x2048.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S1x1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x1024x2048 : Shape := ⟨3, ![8, 1024, 2048]⟩
abbrev S2048x2048 : Shape := ⟨2, ![2048, 2048]⟩
abbrev S_ : Shape := ⟨0, ![]⟩
abbrev S8x1024x1024 : Shape := ⟨3, ![8, 1024, 1024]⟩
abbrev S1024x1024 : Shape := ⟨2, ![1024, 1024]⟩
abbrev S1x1024x1024 : Shape := ⟨3, ![1, 1024, 1024]⟩
abbrev S8x1024 : Shape := ⟨2, ![8, 1024]⟩
abbrev S8x1x1024 : Shape := ⟨3, ![8, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8x1024x2048, .f32⟩
  | .hbm, ⟨6, _⟩ => ⟨S8x1024x2048, .f32⟩
  | .hbm, ⟨7, _⟩ => ⟨S_, .f32⟩
  | .hbm, ⟨8, _⟩ => ⟨S8x1024x2048, .f32⟩
  | .hbm, ⟨9, _⟩ => ⟨S8x1024x2048, .f32⟩
  | .hbm, ⟨10, _⟩ => ⟨S8x1024x2048, .f32⟩
  | .hbm, ⟨11, _⟩ => ⟨S8x1024x1024, .f32⟩
  | .hbm, ⟨12, _⟩ => ⟨S1024x1024, .i32⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S1x1024x1024, .i1⟩
  | .hbm, ⟨19, _⟩ => ⟨S_, .f32⟩
  | .hbm, ⟨20, _⟩ => ⟨S_, .f32⟩
  | .hbm, ⟨21, _⟩ => ⟨S8x1024x1024, .i1⟩
  | .hbm, ⟨22, _⟩ => ⟨S8x1024x1024, .f32⟩
  | .hbm, ⟨23, _⟩ => ⟨S8x1024x1024, .f32⟩
  | .hbm, ⟨24, _⟩ => ⟨S_, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1x1024, .f32⟩
  | .hbm, ⟨30, _⟩ => ⟨S8x1024x1024, .f32⟩
  | .hbm, ⟨31, _⟩ => ⟨S8x1024x1024, .f32⟩
  | .hbm, ⟨32, _⟩ => ⟨S8x1024x1024, .f32⟩
  | .hbm, ⟨33, _⟩ => ⟨S_, .f32⟩
  | .hbm, ⟨34, _⟩ => ⟨S8x1024, .f32⟩
  | .hbm, ⟨35, _⟩ => ⟨S8x1x1024, .f32⟩
  | .hbm, ⟨36, _⟩ => ⟨S8x1024x1024, .f32⟩
  | .hbm, ⟨37, _⟩ => ⟨S8x1024x1024, .f32⟩
  | .hbm, ⟨38, _⟩ => ⟨S8x1024x2048, .f32⟩
  | .hbm, ⟨39, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S8x1024x2048 : S_.BroadcastsInDim S8x1024x2048 (![] : Fin 0 → Fin S8x1024x2048.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  bcast_S_S8x1024x1024 : S_.BroadcastsInDim S8x1024x1024 (![] : Fin 0 → Fin S8x1024x1024.rank)
  reducesTo_S8x1024x1024_S8x1024_d1 : S8x1024x1024.ReducesTo [1] S8x1024
  h_S_ : 0 < S_.numel
  bcast_S_S8x1024 : S_.BroadcastsInDim S8x1024 (![] : Fin 0 → Fin S8x1024.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  dot_S8x1024x2048_S2048x2048_S8x1024x2048_2_1_01_0_n_n_wf : DotDims.WF S8x1024x2048 S2048x2048 S8x1024x2048 [2] [1] [0, 1] [0] [] []
  dot_S8x1024x2048_S8x1024x2048_S8x1024x1024_2_2_1_1_0_0_wf : DotDims.WF S8x1024x2048 S8x1024x2048 S8x1024x1024 [2] [2] [1] [1] [0] [0]
  dot_S8x1024x1024_S8x1024x2048_S8x1024x2048_1_1_2_2_0_0_wf : DotDims.WF S8x1024x1024 S8x1024x2048 S8x1024x2048 [1] [1] [2] [2] [0] [0]

variable [Facts₀]

def dot_S8x1024x2048_S2048x2048_S8x1024x2048_2_1_01_0_n_n : DotDims S8x1024x2048 S2048x2048 S8x1024x2048 where
  lhsContracting := [2]
  rhsContracting := [1]
  lhsNonContracting := [0, 1]
  rhsNonContracting := [0]
  lhsBatch := []
  rhsBatch := []
  wf := dot_S8x1024x2048_S2048x2048_S8x1024x2048_2_1_01_0_n_n_wf
def dot_S8x1024x2048_S8x1024x2048_S8x1024x1024_2_2_1_1_0_0 : DotDims S8x1024x2048 S8x1024x2048 S8x1024x1024 where
  lhsContracting := [2]
  rhsContracting := [2]
  lhsNonContracting := [1]
  rhsNonContracting := [1]
  lhsBatch := [0]
  rhsBatch := [0]
  wf := dot_S8x1024x2048_S8x1024x2048_S8x1024x1024_2_2_1_1_0_0_wf
def dot_S8x1024x1024_S8x1024x2048_S8x1024x2048_1_1_2_2_0_0 : DotDims S8x1024x1024 S8x1024x2048 S8x1024x2048 where
  lhsContracting := [1]
  rhsContracting := [1]
  lhsNonContracting := [2]
  rhsNonContracting := [2]
  lhsBatch := [0]
  rhsBatch := [0]
  wf := dot_S8x1024x1024_S8x1024x2048_S8x1024x2048_1_1_2_2_0_0_wf

class Facts : Prop extends Facts₀ where

variable [Facts]
-- ==== Proof.Spec.lean ====
/-
  Self-attention whose softmax runs over the FIRST axis of the score matrix, as one function of the five argument
  arrays, index by index, on the extended reals.

  For a batch `b`, rows `j`, `n` and features `d`, `e`:
    * the three projections of the input `y` are `proj y W b n e = ∑ d, y[b,n,d] · W[e,d]`;
    * the score of query row `j` against key row `n` is `∑ d, Q[b,j,d] · K[b,n,d]`, and `-∞` on the diagonal `j = n`;
    * for a fixed key row `n` the scores over all query rows `j` are normalised by `softmax`: each is shifted by the
      column's maximum, exponentiated, and divided by the column's sum of exponentials;
    * output row `n` is the weighted sum over `j` of the value rows `V[b,j,·]`, multiplied by `Woᵀ`.
  Both programs compute exactly these terms; they differ in how the constant `0.1` reaches the query projection
  (a factor of the weight matrix, or of the projected rows), which is the one law proved here (`proj_scale`): on
  finite data `∑ d, y_d · (w_d · s) = s · ∑ d, y_d · w_d`. On the extended reals the law needs the finiteness:
  distributing over a sum fails at infinities.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- Eight sequences of 1024 rows of 2048 features, by coordinates. -/
abbrev Act := Fin 8 → Fin 1024 → Fin 2048 → EReal

/-- The query scale: the value of the single-precision word both programs carry for `0.1`. -/
def scale : EReal := Ideal.ofBits .f32 0x3DCCCCCD#32

/-- A linear projection of every row: `y · Wᵀ`. -/
def proj (y : (⟨3, ![8, 1024, 2048]⟩ : Shape).Idx → EReal) (W : (⟨2, ![2048, 2048]⟩ : Shape).Idx → EReal) : Act :=
  fun b n e => ∑ d : Fin 2048, y (ix3 b n d) * W (ix2 e d)

/-- The masked score of query row `j` against key row `n`: their inner product, `-∞` on the diagonal. -/
def score (Kp Qp : Act) (b : Fin 8) (j n : Fin 1024) : EReal :=
  if j = n then ⊥ else ∑ d : Fin 2048, Qp b j d * Kp b n d

/-- The softmax of 1024 extended reals, as both programs compute it: shift by the maximum (a fold of `max` from `-∞`),
    exponentiate, divide by the sum of the exponentials. -/
def softmax (v : Fin 1024 → EReal) (j : Fin 1024) : EReal :=
  Ideal.div (Ideal.exp (v j - (Finset.univ : Finset (Fin 1024)).fold max ⊥ v))
    (∑ k : Fin 1024, Ideal.exp (v k - (Finset.univ : Finset (Fin 1024)).fold max ⊥ v))

/-- The attention weight of query row `j` for key row `n`: the softmax over all query rows of column `n`'s scores. -/
def weight (Kp Qp : Act) (b : Fin 8) (j n : Fin 1024) : EReal := softmax (fun k => score Kp Qp b k n) j

/-- The value rows mixed by column `n`'s weights. -/
def mixed (Kp Qp Vp : Act) (b : Fin 8) (n : Fin 1024) (d : Fin 2048) : EReal :=
  ∑ j : Fin 1024, weight Kp Qp b j n * Vp b j d

/-- The output row: the mixed values times `Woᵀ`. -/
def out (Kp Qp Vp : Act) (Wo : (⟨2, ![2048, 2048]⟩ : Shape).Idx → EReal) (b : Fin 8) (n : Fin 1024) (e : Fin 2048) : EReal :=
  ∑ d : Fin 2048, mixed Kp Qp Vp b n d * Wo (ix2 e d)

/-- The first result array, `[8, 1024, 2048]`. -/
def outArr (Kp Qp Vp : Act) (Wo : (⟨2, ![2048, 2048]⟩ : Shape).Idx → EReal) : (⟨3, ![8, 1024, 2048]⟩ : Shape).Idx → EReal :=
  fun i => out Kp Qp Vp Wo (i 0) (i 1) (i 2)

/-- The second result array, the attention weights `[8, 1024, 1024]`. -/
def weightArr (Kp Qp : Act) : (⟨3, ![8, 1024, 1024]⟩ : Shape).Idx → EReal :=
  fun i => weight Kp Qp (i 0) (i 1) (i 2)

/-- The coercion of a finite real sum is the sum of the coercions. -/
theorem coe_sum {ι : Type*} (s : Finset ι) (f : ι → ℝ) : (∑ d ∈ s, ((f d : ℝ) : EReal)) = ((∑ d ∈ s, f d : ℝ) : EReal) := by
  classical
  induction s using Finset.induction_on with
  | empty => simp
  | insert a s ha ih => rw [Finset.sum_insert ha, Finset.sum_insert ha, ih, EReal.coe_add]

/-- The scale is a real number: its word's exponent field is not all ones. -/
theorem scale_real : ∃ s : ℝ, scale = (s : EReal) := by
  have h : (BitVec.extractLsb' 23 8 (0x3DCCCCCD#32 : BitVec 32)).toNat ≠ 2 ^ 8 - 1 := by decide
  unfold scale Ideal.ofBits Ideal.ieee
  simp only []
  rw [if_neg h]
  split_ifs <;> exact ⟨_, rfl⟩

/-- THE LAW: on finite data, scaling the weight matrix by `s` scales every projected entry by `s`. -/
theorem proj_scale (y : (⟨3, ![8, 1024, 2048]⟩ : Shape).Idx → EReal) (W : (⟨2, ![2048, 2048]⟩ : Shape).Idx → EReal)
    (hy : ∀ i, ∃ r : ℝ, y i = (r : EReal)) (hW : ∀ i, ∃ r : ℝ, W i = (r : EReal)) :
    proj y (fun i => W i * scale) = fun b n e => scale * proj y W b n e := by
  choose ry hy using hy
  choose rw hW using hW
  obtain ⟨s, hs⟩ := scale_real
  funext b n e
  unfold proj
  simp only [hy, hW, hs, ← EReal.coe_mul]
  rw [coe_sum, coe_sum, ← EReal.coe_mul]
  congr 1
  rw [Finset.mul_sum]
  exact Finset.sum_congr rfl fun d _ => by ring

end Cert.Attn

end
-- ==== Proof.KernelRun.lean ====
/-
  The idealized kernel's run with its two result arrays named.

  The frame's launch theorem ends with every unscoped buffer of the final state at the last boundary's contents (the fold
  of the host stretches and the two regions' write-backs from the launch memory).  Read at the two result buffers, those
  contents are what the second region's write-backs leave in its two output windows' arrays; read at the five arguments
  they are the launch contents.
-/
import proofs.«105799_j61718680043981_2_alg».proof.Proof.KernelIdealFrame

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at what the second region's
    write-backs leave and the arguments as launched. -/
theorem run_named : θ_run defs (onTc (τ := τ) (main (F := F))) ⟨m, fun _ => 0, ρ⟩ (fun r => ∀ c : Dev nD,
      r.2.mem ((c.tc : Thread nD τ).loc main_v11_0) = (dat1 (V3 m ρ) c).arrAt 4 cfg1.N
      ∧ r.2.mem ((c.tc : Thread nD τ).loc main_v11_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v11_0 (by decide))).trans (W4_arr m ρ c 4),
       (h c _ (mem_uc main_v11_1 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.Region0.lean ====
/-
  The first kernel region: the three projections, 256 rows at a time.

  At each of its 32 grid points the body multiplies a block of 256 rows of the flattened input `[8192, 2048]` by
  the transposes of three whole `[2048, 2048]` weight matrices and stores the three `[256, 2048]` products.  Entry
  `(r, e)` of each product is `∑ d, x[r, d] · w[e, d]` on the extended reals (a change of float format is the
  identity there).  Block `t` of an output array is rows `256 t … 256 t + 255`, the blocks tile the array, so each
  output array ends as ONE function of the input arrays as the region finds them: `rowsTimes A W`.
-/
import proofs.«105799_j61718680043981_2_alg».proof.Proof.KernelIdealFrame
import proofs.«105799_j61718680043981_2_alg».proof.Proof.LibMatmulNT
import Idealize.ShloMosaic.Lib.Pipeline.Value
import Idealize.ShloMosaic.Lib.ValueIdx
import Idealize.ShloMosaic.PureOps.Ideal.Laws

noncomputable section

open scoped BigOperators

namespace Cert.KernelIdeal.Projections

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- Every row of `A` against every row of `W`: `(A · Wᵀ)[m, e] = ∑ d, A[m, d] · W[e, d]`. -/
def rowsTimes (A : S8192x2048.Idx → EReal) (W : S2048x2048.Idx → EReal) : S8192x2048.Idx → EReal :=
  fun i => ∑ d : Fin 2048, A (ix2 (i 0) d) * W (ix2 (i 1) d)

/-- The kernel's dimension record for its three products is the product against a transposed right operand. -/
theorem dims_eq : dot_S256x2048_S2048x2048_S256x2048_1_1_0_0_n_n = DotDims.transposedRhs 256 2048 2048 := rfl

/-- One product of the body at an entry. -/
theorem product_apply (x : FVec Ideal S256x2048 .bf16) (w : FVec Ideal S2048x2048 .bf16) (r : Fin 256) (e : Fin 2048) :
    matmul dot_S256x2048_S2048x2048_S256x2048_1_1_0_0_n_n none x w (constant S256x2048 .f32 0x00000000#32) (ix2 r e)
      = ∑ d : Fin 2048, x (ix2 r d) * w (ix2 e d) := by
  rw [dims_eq]
  exact LibMatmulNT.matmul_zero_apply 256 2048 2048 none x w r e

/-- The three stored values at an entry. -/
theorem pay2_apply (x0 : Vec Ideal S256x2048 .f32) (x1 : Vec Ideal S2048x2048 .bf16) (r : Fin 256) (e : Fin 2048) :
    k0_pay2 x0 x1 (ix2 r e) = ∑ d : Fin 2048, x0 (ix2 r d) * x1 (ix2 e d) := by
  unfold k0_pay2 k0_pay1
  dsimp only
  rw [shapeCast_self, shapeCast_self]
  exact product_apply _ _ r e
theorem pay3_apply (x0 : Vec Ideal S256x2048 .f32) (x1 : Vec Ideal S2048x2048 .bf16) (r : Fin 256) (e : Fin 2048) :
    k0_pay3 x0 x1 (ix2 r e) = ∑ d : Fin 2048, x0 (ix2 r d) * x1 (ix2 e d) := by
  unfold k0_pay3 k0_pay1
  dsimp only
  rw [shapeCast_self, shapeCast_self]
  exact product_apply _ _ r e
theorem pay4_apply (x0 : Vec Ideal S256x2048 .f32) (x1 : Vec Ideal S2048x2048 .bf16) (r : Fin 256) (e : Fin 2048) :
    k0_pay4 x0 x1 (ix2 r e) = ∑ d : Fin 2048, x0 (ix2 r d) * x1 (ix2 e d) := by
  unfold k0_pay4 k0_pay1
  dsimp only
  rw [shapeCast_self, shapeCast_self]
  exact product_apply _ _ r e

/-! ## From blocks to arrays -/

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the 32 grid points: the row-block window and the three output windows sit at block
    row `t`, block column 0; the weight windows at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The row-block window's block at a point, read at an entry: rows `256 t + r` of the region's first array. -/
theorem rows_read (c : Dev nD) (t : Fin cfg0.N) (r : Fin 256) (d : Fin 2048) (i0 : Fin 8192) (h : i0.val = t.val * 256 + r.val) :
    iblk0 V c 0 t (ix2 r d) = V c main_v0 (ix2 i0 d) := by
  obtain ⟨e0, e1, -⟩ := index_facts t
  show V c main_v0 (((cfg0.win 0).blk t).view.emb (ix2 r d)) = V c main_v0 (ix2 i0 d)
  refine congrArg (V c main_v0) (funext fun a => Fin.ext ?_)
  match a with
  | ⟨0, _⟩ => show win0_0.index t (0 : Fin 2) * 256 + 1 * r.val = i0.val; omega
  | ⟨1, _⟩ => show win0_0.index t (1 : Fin 2) * 2048 + 1 * d.val = d.val; omega

/-- A weight window's block is its whole array. -/
theorem weight1_read (c : Dev nD) (t : Fin cfg0.N) (e d : Fin 2048) : iblk0 V c 1 t (ix2 e d) = V c main_v1 (ix2 e d) := by
  obtain ⟨-, -, e0, e1, -⟩ := index_facts t
  show V c main_v1 (((cfg0.win 1).blk t).view.emb (ix2 e d)) = V c main_v1 (ix2 e d)
  refine congrArg (V c main_v1) (funext fun a => Fin.ext ?_)
  match a with
  | ⟨0, _⟩ => show win0_1.index t (0 : Fin 2) * 2048 + 1 * e.val = e.val; omega
  | ⟨1, _⟩ => show win0_1.index t (1 : Fin 2) * 2048 + 1 * d.val = d.val; omega
theorem weight2_read (c : Dev nD) (t : Fin cfg0.N) (e d : Fin 2048) : iblk0 V c 2 t (ix2 e d) = V c main_v4 (ix2 e d) := by
  obtain ⟨-, -, -, -, e0, e1, -⟩ := index_facts t
  show V c main_v4 (((cfg0.win 2).blk t).view.emb (ix2 e d)) = V c main_v4 (ix2 e d)
  refine congrArg (V c main_v4) (funext fun a => Fin.ext ?_)
  match a with
  | ⟨0, _⟩ => show win0_2.index t (0 : Fin 2) * 2048 + 1 * e.val = e.val; omega
  | ⟨1, _⟩ => show win0_2.index t (1 : Fin 2) * 2048 + 1 * d.val = d.val; omega
theorem weight3_read (c : Dev nD) (t : Fin cfg0.N) (e d : Fin 2048) : iblk0 V c 3 t (ix2 e d) = V c main_v5 (ix2 e d) := by
  obtain ⟨-, -, -, -, -, -, e0, e1, -⟩ := index_facts t
  show V c main_v5 (((cfg0.win 3).blk t).view.emb (ix2 e d)) = V c main_v5 (ix2 e d)
  refine congrArg (V c main_v5) (funext fun a => Fin.ext ?_)
  match a with
  | ⟨0, _⟩ => show win0_3.index t (0 : Fin 2) * 2048 + 1 * e.val = e.val; omega
  | ⟨1, _⟩ => show win0_3.index t (1 : Fin 2) * 2048 + 1 * d.val = d.val; omega

/-- WHAT POINT `t` WRITES BACK to output window 4 is block `t` of `rowsTimes`. -/
theorem flushed4_eq (c : Dev nD) (t : Fin cfg0.N) :
    (dat0 V c).flushed 4 t = ((cfg0.win 4).blk t).view.read (Elt Ideal) (rowsTimes (V c main_v0) (V c main_v1)) := by
  show (cfg0.win 4).cut (grid0.coords t) ((dat0 V c).after 4 t) = _
  rw [after0_4]
  unfold out0_4
  rw [View.canon_unit_zero zeros2]
  simp only [View.ld_unit_zero (S := S256x2048) zeros2, View.ld_unit_zero (S := S2048x2048) zeros2]
  obtain ⟨-, -, -, -, -, -, -, -, e4, e4', e5, e5', e6, e6'⟩ := index_facts t
  funext y
  obtain ⟨r, e, rfl⟩ : ∃ (r : Fin 256) (e : Fin 2048), y = ix2 r e := ⟨y 0, y 1, eq_ix2 y⟩
  refine (pay2_apply (iblk0 V c 0 t) (iblk0 V c 1 t) r e).trans ?_
  show _ = rowsTimes (V c main_v0) (V c main_v1) (((cfg0.win 4).blk t).view.emb (ix2 r e))
  unfold rowsTimes
  refine Finset.sum_congr rfl fun d _ => ?_
  have h0 : ((((cfg0.win 4).blk t).view.emb (ix2 r e)) 0).val = t.val * 256 + r.val := by
    show win0_4.index t (0 : Fin 2) * 256 + 1 * r.val = _; omega
  have h1 : ((((cfg0.win 4).blk t).view.emb (ix2 r e)) 1) = e := Fin.ext (by
    show win0_4.index t (1 : Fin 2) * 2048 + 1 * e.val = _; omega)
  rw [rows_read V c t r d _ h0, weight1_read V c t e d, h1]

/-- An index of the array is in point `t`'s block iff each coordinate is in the block's range on its axis. -/
theorem mem_blk4 (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v7_0).slice (win0_4.rect t)).set ↔ _
  rw [View.set_slice_whole, Rect.mem_set_unit]
  exact Iff.rfl

/-- Row `m` of the array lies in the block of point `m / 256`: the blocks tile the array. -/
theorem cover4 (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  refine ⟨⟨(i 0).val / 256, by show (i 0).val / 256 < 32; omega⟩, flush0_4 _, ?_⟩
  rw [mem_blk4]
  obtain ⟨-, -, -, -, -, -, -, -, e4, e4', e5, e5', e6, e6'⟩ := index_facts ⟨(i 0).val / 256, by show (i 0).val / 256 < 32; omega⟩
  intro a
  match a with
  | ⟨0, _⟩ => show win0_4.index _ (0 : Fin 2) * 256 ≤ (i 0).val ∧ (i 0).val < win0_4.index _ (0 : Fin 2) * 256 + 256; simp only [] at e4 e5 e6; omega
  | ⟨1, _⟩ => show win0_4.index _ (1 : Fin 2) * 2048 ≤ (i 1).val ∧ (i 1).val < win0_4.index _ (1 : Fin 2) * 2048 + 2048; omega

/-- THE ARRAY after the region. -/
theorem final4 (c : Dev nD) : (dat0 V c).arrAt 4 cfg0.N = rowsTimes (V c main_v0) (V c main_v1) :=
  (dat0 V c).arrAt_eq_of_cover 4 (rowsTimes (V c main_v0) (V c main_v1)) (fun t _ => flushed4_eq V c t) cover4

/-- WHAT POINT `t` WRITES BACK to output window 5 is block `t` of `rowsTimes`. -/
theorem flushed5_eq (c : Dev nD) (t : Fin cfg0.N) :
    (dat0 V c).flushed 5 t = ((cfg0.win 5).blk t).view.read (Elt Ideal) (rowsTimes (V c main_v0) (V c main_v4)) := by
  show (cfg0.win 5).cut (grid0.coords t) ((dat0 V c).after 5 t) = _
  rw [after0_5]
  unfold out0_5
  rw [View.canon_unit_zero zeros2]
  simp only [View.ld_unit_zero (S := S256x2048) zeros2, View.ld_unit_zero (S := S2048x2048) zeros2]
  obtain ⟨-, -, -, -, -, -, -, -, e4, e4', e5, e5', e6, e6'⟩ := index_facts t
  funext y
  obtain ⟨r, e, rfl⟩ : ∃ (r : Fin 256) (e : Fin 2048), y = ix2 r e := ⟨y 0, y 1, eq_ix2 y⟩
  refine (pay3_apply (iblk0 V c 0 t) (iblk0 V c 2 t) r e).trans ?_
  show _ = rowsTimes (V c main_v0) (V c main_v4) (((cfg0.win 5).blk t).view.emb (ix2 r e))
  unfold rowsTimes
  refine Finset.sum_congr rfl fun d _ => ?_
  have h0 : ((((cfg0.win 5).blk t).view.emb (ix2 r e)) 0).val = t.val * 256 + r.val := by
    show win0_5.index t (0 : Fin 2) * 256 + 1 * r.val = _; omega
  have h1 : ((((cfg0.win 5).blk t).view.emb (ix2 r e)) 1) = e := Fin.ext (by
    show win0_5.index t (1 : Fin 2) * 2048 + 1 * e.val = _; omega)
  rw [rows_read V c t r d _ h0, weight2_read V c t e d, h1]

/-- An index of the array is in point `t`'s block iff each coordinate is in the block's range on its axis. -/
theorem mem_blk5 (t : Fin cfg0.N) (i : S8192x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v7_1).slice (win0_5.rect t)).set ↔ _
  rw [View.set_slice_whole, Rect.mem_set_unit]
  exact Iff.rfl

/-- Row `m` of the array lies in the block of point `m / 256`: the blocks tile the array. -/
theorem cover5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  refine ⟨⟨(i 0).val / 256, by show (i 0).val / 256 < 32; omega⟩, flush0_5 _, ?_⟩
  rw [mem_blk5]
  obtain ⟨-, -, -, -, -, -, -, -, e4, e4', e5, e5', e6, e6'⟩ := index_facts ⟨(i 0).val / 256, by show (i 0).val / 256 < 32; omega⟩
  intro a
  match a with
  | ⟨0, _⟩ => show win0_5.index _ (0 : Fin 2) * 256 ≤ (i 0).val ∧ (i 0).val < win0_5.index _ (0 : Fin 2) * 256 + 256; simp only [] at e4 e5 e6; omega
  | ⟨1, _⟩ => show win0_5.index _ (1 : Fin 2) * 2048 ≤ (i 1).val ∧ (i 1).val < win0_5.index _ (1 : Fin 2) * 2048 + 2048; omega

/-- THE ARRAY after the region. -/
theorem final5 (c : Dev nD) : (dat0 V c).arrAt 5 cfg0.N = rowsTimes (V c main_v0) (V c main_v4) :=
  (dat0 V c).arrAt_eq_of_cover 5 (rowsTimes (V c main_v0) (V c main_v4)) (fun t _ => flushed5_eq V c t) cover5

/-- WHAT POINT `t` WRITES BACK to output window 6 is block `t` of `rowsTimes`. -/
theorem flushed6_eq (c : Dev nD) (t : Fin cfg0.N) :
    (dat0 V c).flushed 6 t = ((cfg0.win 6).blk t).view.read (Elt Ideal) (rowsTimes (V c main_v0) (V c main_v5)) := by
  show (cfg0.win 6).cut (grid0.coords t) ((dat0 V c).after 6 t) = _
  rw [after0_6]
  unfold out0_6
  rw [View.canon_unit_zero zeros2]
  simp only [View.ld_unit_zero (S := S256x2048) zeros2, View.ld_unit_zero (S := S2048x2048) zeros2]
  obtain ⟨-, -, -, -, -, -, -, -, e4, e4', e5, e5', e6, e6'⟩ := index_facts t
  funext y
  obtain ⟨r, e, rfl⟩ : ∃ (r : Fin 256) (e : Fin 2048), y = ix2 r e := ⟨y 0, y 1, eq_ix2 y⟩
  refine (pay4_apply (iblk0 V c 0 t) (iblk0 V c 3 t) r e).trans ?_
  show _ = rowsTimes (V c main_v0) (V c main_v5) (((cfg0.win 6).blk t).view.emb (ix2 r e))
  unfold rowsTimes
  refine Finset.sum_congr rfl fun d _ => ?_
  have h0 : ((((cfg0.win 6).blk t).view.emb (ix2 r e)) 0).val = t.val * 256 + r.val := by
    show win0_6.index t (0 : Fin 2) * 256 + 1 * r.val = _; omega
  have h1 : ((((cfg0.win 6).blk t).view.emb (ix2 r e)) 1) = e := Fin.ext (by
    show win0_6.index t (1 : Fin 2) * 2048 + 1 * e.val = _; omega)
  rw [rows_read V c t r d _ h0, weight3_read V c t e d, h1]

/-- An index of the array is in point `t`'s block iff each coordinate is in the block's range on its axis. -/
theorem mem_blk6 (t : Fin cfg0.N) (i : S8192x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v7_2).slice (win0_6.rect t)).set ↔ _
  rw [View.set_slice_whole, Rect.mem_set_unit]
  exact Iff.rfl

/-- Row `m` of the array lies in the block of point `m / 256`: the blocks tile the array. -/
theorem cover6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  refine ⟨⟨(i 0).val / 256, by show (i 0).val / 256 < 32; omega⟩, flush0_6 _, ?_⟩
  rw [mem_blk6]
  obtain ⟨-, -, -, -, -, -, -, -, e4, e4', e5, e5', e6, e6'⟩ := index_facts ⟨(i 0).val / 256, by show (i 0).val / 256 < 32; omega⟩
  intro a
  match a with
  | ⟨0, _⟩ => show win0_6.index _ (0 : Fin 2) * 256 ≤ (i 0).val ∧ (i 0).val < win0_6.index _ (0 : Fin 2) * 256 + 256; simp only [] at e4 e5 e6; omega
  | ⟨1, _⟩ => show win0_6.index _ (1 : Fin 2) * 2048 ≤ (i 1).val ∧ (i 1).val < win0_6.index _ (1 : Fin 2) * 2048 + 2048; omega

/-- THE ARRAY after the region. -/
theorem final6 (c : Dev nD) : (dat0 V c).arrAt 6 cfg0.N = rowsTimes (V c main_v0) (V c main_v5) :=
  (dat0 V c).arrAt_eq_of_cover 6 (rowsTimes (V c main_v0) (V c main_v5)) (fun t _ => flushed6_eq V c t) cover6

end Cert.KernelIdeal.Projections

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.LibVecToColumn.lean ====
/-
  A reshape keeps the row-major position of every element: a vector of length `n` and the column `[n, 1]` it is
  reshaped to hold element `r` at positions `r` and `r · 1 + 0`.
-/
import Idealize.ShloMosaic.Lib.Pipeline.Value
import Idealize.ShloMosaic.Lib.ValueIdx

noncomputable section

namespace LibVecToColumn

open Idealize.ShloMosaic Idealize.ShloMosaic.ValueIdx

/-- A vector of length `n` laid out as a column `[n, 1]` reads, at `(r, 0)`, the vector at `r`. -/
theorem vec_to_col_apply {α : Type} {n : Nat} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    rw [Nat.mul_one, Nat.add_zero])

end LibVecToColumn

end
-- ==== Proof.Tile.lean ====
/-
  One grid point of the attention region, entry by entry.

  The body holds 256 key rows `x0[0, r, ·]`, all 1024 query rows `x1[0, j, ·]`, all 1024 value rows `x2[0, j, ·]` and the
  output weights `x3`.  It forms the 256 × 1024 scores `∑ d, x0[r, d] · x1[j, d]`, overwrites the entries on the
  global diagonal — column `j` equal to `256 p + r`, `p` the point's second grid coordinate — by the named constant
  (`-∞` at the extended reals), and normalises every ROW: subtract the row's maximum, exponentiate, divide by the
  row's sum.  That is `Cert.Attn.softmax` of the row (`weights_apply`).  The first stored value is the weights times the
  value rows times `x3ᵀ` (`out_apply`); the second is the transposed weights (`stored_weights_apply`).
  A change of float format is the identity on the extended reals, a row maximum is a fold of `max` from `-∞`, a
  row sum a finite sum, and the two keep-dimension reshapes followed by a broadcast along the row read the row's one value.
-/
import proofs.«105799_j61718680043981_2_alg».proof.Proof.Gen.KernelIdeal.Skeleton
import proofs.«105799_j61718680043981_2_alg».proof.Proof.Spec
import proofs.«105799_j61718680043981_2_alg».proof.Proof.LibMatmulNT
import proofs.«105799_j61718680043981_2_alg».proof.Proof.LibMatmulNN
import proofs.«105799_j61718680043981_2_alg».proof.Proof.LibColumnLayout
import proofs.«105799_j61718680043981_2_alg».proof.Proof.LibVecToColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.Tile

open Cert.KernelIdeal Cert.KernelIdeal.Gen Idealize.ShloMosaic Idealize.ShloMosaic.ValueIdx

/-- The word of `-∞`. -/
theorem negInf_word : Ideal.ofBits .f32 0xFF800000#32 = (⊥ : EReal) := by simp [Ideal.ofBits, Ideal.ieee]

/-- The mask fill: the named constant is `-∞`. -/
theorem fill_eq : Named.named (F := Ideal) κ "neg_big" (φ := .f32) 0xFF333332#32 = (⊥ : EReal) :=
  IdealRules.named_const.ideal_named_scalar _ _ _ _ rfl

/-- The index a row reduction inserts on axis 1. -/
theorem lift_eq (h : S256x1024.Reduces [1] S256) (r : Fin 256) (k : Fin 1024) : h.lift (ix1 r) k = ix2 r k := by
  funext a; apply Fin.ext
  match a with
  | ⟨0, _⟩ => rfl
  | ⟨1, _⟩ => rfl

/-- A row's maximum: the fold of `max` from `-∞` over the row. -/
theorem rowMax_apply (X : FVec Ideal S256x1024 .f32) (h : S256x1024.Reduces [1] S256) (hφ : FKind.Formats .f32)
    (hacc : (0xFF800000#32 : BitVec 32) = 0xFF800000#32) (r : Fin 256) :
    multiReduction .maximumf [1] S256 X 0xFF800000#32 h hφ hacc (ix1 r)
      = (Finset.univ : Finset (Fin 1024)).fold max ⊥ (fun k => X (ix2 r k)) := by
  refine (Ideal.multiReduction_maximumf_single X 0xFF800000#32 h hφ hacc (ix1 r)).trans ?_
  show (Finset.univ : Finset (Fin 1024)).fold max (Ideal.ofBits .f32 0xFF800000#32) (fun k => X (h.lift (ix1 r) k)) = _
  rw [negInf_word]
  have e : (fun k : Fin 1024 => X (h.lift (ix1 r) k)) = fun k => X (ix2 r k) := funext fun k => congrArg X (lift_eq h r k)
  exact congrArg (fun f : Fin 1024 → EReal => (Finset.univ : Finset (Fin 1024)).fold max ⊥ f) e

/-- A row's sum. -/
theorem rowSum_apply (X : FVec Ideal S256x1024 .f32) (h : S256x1024.Reduces [1] S256) (hφ : FKind.Formats .f32)
    (hacc : (0x00000000#32 : BitVec 32) = 0x00000000#32) (r : Fin 256) :
    multiReduction .add [1] S256 X 0x00000000#32 h hφ hacc (ix1 r) = ∑ k : Fin 1024, X (ix2 r k) := by
  refine (Ideal.multiReduction_add_single X 0x00000000#32 h hφ hacc (ix1 r)).trans ?_
  show ∑ k : Fin 1024, X (h.lift (ix1 r) k) = _
  exact Finset.sum_congr rfl fun k _ => congrArg X (lift_eq h r k)

/-- A per-row value kept as a column and broadcast along the row reads the row's value. -/
theorem column_apply (v : FVec Ideal S256 .f32) (hc : S256.ShapeCasts S256x1) (hb : S256x1.Broadcasts S256x1024)
    (r : Fin 256) (j : Fin 1024) : broadcastTo S256x1024 (shapeCast S256x1 v hc) hb (ix2 r j) = v (ix1 r) :=
  (broadcastTo_a1_ab_apply (shapeCast S256x1 v hc) hb r j).trans (LibVecToColumn.vec_to_col_apply v hc r)

/-- The row softmax of a 256 × 1024 block, as the body spells it. -/
theorem rowSoftmax_apply (X : FVec Ideal S256x1024 .f32) (h : S256x1024.Reduces [1] S256) (hφ hφ' : FKind.Formats .f32)
    (hacc : (0xFF800000#32 : BitVec 32) = 0xFF800000#32) (hacc' : (0x00000000#32 : BitVec 32) = 0x00000000#32)
    (hc : S256.ShapeCasts S256x1) (hb : S256x1.Broadcasts S256x1024) (r : Fin 256) (j : Fin 1024) :
    divf (exp (subf X (broadcastTo S256x1024 (shapeCast S256x1 (multiReduction .maximumf [1] S256 X 0xFF800000#32 h hφ hacc) hc) hb)))
        (broadcastTo S256x1024 (shapeCast S256x1 (multiReduction .add [1] S256
          (exp (subf X (broadcastTo S256x1024 (shapeCast S256x1 (multiReduction .maximumf [1] S256 X 0xFF800000#32 h hφ hacc) hc) hb)))
          0x00000000#32 h hφ' hacc') hc) hb) (ix2 r j)
      = Cert.Attn.softmax (fun k => X (ix2 r k)) j := by
  show Ideal.div (Ideal.exp (X (ix2 r j) - _)) _ = _
  rw [column_apply, column_apply, rowMax_apply, rowSum_apply]
  unfold Cert.Attn.softmax
  refine congrArg _ (Finset.sum_congr rfl fun k _ => ?_)
  show Ideal.exp (X (ix2 r k) - _) = _
  rw [column_apply, rowMax_apply]

/-! ## The masked scores -/

/-- The diagonal test on words: for a row block `p < 4`, `256 p + r` and `k` agree as 32-bit words exactly when they
    agree as numbers. -/
theorem diag_word (p : Nat) (hp : p < 4) (r : Fin 256) (k : Fin 1024) :
    (BitVec.ofBool (BitVec.ofNat 32 p * 256#32 + BitVec.ofNat 32 r.val == BitVec.ofNat 32 k.val) = 1#1)
      ↔ p * 256 + r.val = k.val := by
  have hr := r.isLt
  have hk := k.isLt
  constructor
  · intro h
    have hb : (BitVec.ofNat 32 p * 256#32 + BitVec.ofNat 32 r.val == BitVec.ofNat 32 k.val) = true := by
      cases hh : (BitVec.ofNat 32 p * 256#32 + BitVec.ofNat 32 r.val == BitVec.ofNat 32 k.val)
      · rw [hh] at h; exact absurd h (by decide)
      · rfl
    have h2 := congrArg BitVec.toNat (eq_of_beq hb)
    simp only [BitVec.toNat_add, BitVec.toNat_mul, BitVec.toNat_ofNat, Nat.reducePow] at h2
    omega
  · intro h
    have h2 : BitVec.ofNat 32 p * 256#32 + BitVec.ofNat 32 r.val = BitVec.ofNat 32 k.val := by
      apply BitVec.eq_of_toNat_eq
      simp only [BitVec.toNat_add, BitVec.toNat_mul, BitVec.toNat_ofNat, Nat.reducePow]
      omega
    rw [h2]
    simp

/-- The select on the diagonal test, at an entry. -/
theorem masked_apply (p : Nat) (hp : p < 4) (c : Ideal .f32) (Y : FVec Ideal S256x1024 .f32)
    (h0 : S256x1024.Iotas .tc 32 [0]) (h1 : S256x1024.Iotas .tc 32 [1]) (r : Fin 256) (k : Fin 1024) :
    select (cmpi .eq (addi (broadcast S256x1024 (Scalar.muli (BitVec.ofNat 32 p) 256#32)) (iota .tc S256x1024 32 [0] h0))
        (iota .tc S256x1024 32 [1] h1)) (broadcast S256x1024 c) Y (ix2 r k)
      = if p * 256 + r.val = k.val then c else Y (ix2 r k) := by
  show Scalar.select (IntOp.cmpi .eq (IntOp.addi (Scalar.muli (BitVec.ofNat 32 p) 256#32) (iota .tc S256x1024 32 [0] h0 (ix2 r k)))
      (iota .tc S256x1024 32 [1] h1 (ix2 r k))) c (Y (ix2 r k)) = _
  rw [iota_single_apply, iota_single_apply]
  show (if BitVec.ofBool (BitVec.ofNat 32 p * 256#32 + BitVec.ofNat 32 r.val == BitVec.ofNat 32 k.val) = 1#1 then c else Y (ix2 r k)) = _
  exact if_congr (diag_word p hp r k) rfl rfl

/-- The masked score of key row `r` of row block `p` against query row `k`. -/
def tileScore (p : Nat) (x0 : Vec Ideal S1x256x2048 .bf16) (x1 : Vec Ideal S1x1024x2048 .bf16) (r : Fin 256) (k : Fin 1024) : EReal :=
  if p * 256 + r.val = k.val then ⊥ else ∑ d : Fin 2048, x0 (ix3 (0 : Fin 1) r d) * x1 (ix3 (0 : Fin 1) k d)

theorem dims_scores : dot_S256x2048_S1024x2048_S256x1024_1_1_0_0_n_n = DotDims.transposedRhs 256 2048 1024 := rfl
theorem dims_mix : dot_S256x1024_S1024x2048_S256x2048_1_0_0_1_n_n = DotDims.plain 256 1024 2048 := rfl
theorem dims_out : dot_S256x2048_S2048x2048_S256x2048_1_1_0_0_n_n = DotDims.transposedRhs 256 2048 2048 := rfl

/-- THE WEIGHTS of a grid point: entry `(r, j)` is the softmax of key row `r`'s masked scores, at query row `j`. -/
theorem weights_apply (i : grid1.Coords) (x0 : Vec Ideal S1x256x2048 .bf16) (x1 : Vec Ideal S1x1024x2048 .bf16)
    (r : Fin 256) (j : Fin 1024) :
    k1_pay2 i x0 x1 (ix2 r j) = Cert.Attn.softmax (fun k => tileScore (i 1).val x0 x1 r k) j := by
  have hp : (i 1).val < 4 := (i 1).isLt
  unfold k1_pay2
  dsimp only
  refine (rowSoftmax_apply _ _ _ _ _ _ _ _ r j).trans ?_
  refine congrArg (fun v => Cert.Attn.softmax v j) (funext fun k => ?_)
  refine (masked_apply (i 1).val hp _ _ _ _ r k).trans ?_
  unfold tileScore
  rw [fill_eq, dims_scores]
  refine if_congr Iff.rfl rfl ?_
  refine (LibMatmulNT.matmul_zero_apply 256 2048 1024 none _ _ r k).trans ?_
  refine Finset.sum_congr rfl fun d _ => ?_
  rw [shapeCast_1ab_ab_apply, shapeCast_1ab_ab_apply]

/-- THE SECOND STORED VALUE: the weights transposed, under a leading unit axis. -/
theorem stored_weights_apply (i : grid1.Coords) (x0 : Vec Ideal S1x256x2048 .bf16) (x1 : Vec Ideal S1x1024x2048 .bf16)
    (j : Fin 1024) (r : Fin 256) :
    k1_pay1 (k1_pay4 i x0 x1) (ix3 (0 : Fin 1) j r) = Cert.Attn.softmax (fun k => tileScore (i 1).val x0 x1 r k) j := by
  unfold k1_pay1 k1_pay4
  dsimp only
  rw [shapeCast_ab_1ab_apply, transpose_ix2_apply]
  exact weights_apply i x0 x1 r j

/-- THE FIRST STORED VALUE: the weights times the value rows, times the transposed output weights. -/
theorem out_apply (i : grid1.Coords) (x0 : Vec Ideal S1x256x2048 .bf16) (x1 x2 : Vec Ideal S1x1024x2048 .bf16)
    (x3 : Vec Ideal S2048x2048 .bf16) (r : Fin 256) (e : Fin 2048) :
    k1_pay3 i x0 x1 x2 x3 (ix3 (0 : Fin 1) r e)
      = ∑ d : Fin 2048, (∑ j : Fin 1024, Cert.Attn.softmax (fun k => tileScore (i 1).val x0 x1 r k) j * x2 (ix3 (0 : Fin 1) j d)) * x3 (ix2 e d) := by
  unfold k1_pay3
  dsimp only
  rw [shapeCast_ab_1ab_apply, shapeCast_self, dims_out, dims_mix]
  refine (LibMatmulNT.matmul_zero_apply 256 2048 2048 (φ₁ := .bf16) (φ₂ := .bf16) none _ _ r e).trans ?_
  refine Finset.sum_congr rfl fun d _ => ?_
  refine congrArg (· * x3 (ix2 e d)) ?_
  refine (LibMatmulNN.matmul_zero_apply 256 1024 2048 (φ₁ := .bf16) (φ₂ := .bf16) none _ _ r d).trans ?_
  refine Finset.sum_congr rfl fun j _ => ?_
  rw [shapeCast_1ab_ab_apply]
  exact congrArg (· * x2 (ix3 (0 : Fin 1) j d)) (weights_apply i x0 x1 r j)

end Cert.KernelIdeal.Tile

end
-- ==== Proof.Region1.lean ====
/-
  The second kernel region: attention, 256 key rows at a time.

  Its 32 grid points are the pairs (batch `b`, row block `p`), point `t` being `(t / 4, t % 4)`.  The point reads key rows
  `256 p … 256 p + 255` of batch `b`, all query and value rows of batch `b` and the whole output weight matrix; it writes
  rows `256 p …` of batch `b` of the first result and COLUMNS `256 p …` of batch `b` of the second (the weights, transposed).
  With the one-point reading of `Tile.lean`, the blocks of each result are blocks of ONE function of the arrays the region
  finds, `Cert.Attn.outArr` and `Cert.Attn.weightArr` of the three projected arrays read by coordinates; the blocks tile the
  two result arrays.  The tile's diagonal test `256 p + r = k` is the specification's `k = n` at `n = 256 p + r`, and the tile
  multiplies key by query where the specification multiplies query by key: products of extended reals commute.
-/
import proofs.«105799_j61718680043981_2_alg».proof.Proof.KernelIdealFrame
import proofs.«105799_j61718680043981_2_alg».proof.Proof.Tile
import proofs.«105799_j61718680043981_2_alg».proof.Proof.Spec
import Idealize.ShloMosaic.Lib.Pipeline.Value
import Idealize.ShloMosaic.Lib.ValueIdx

noncomputable section

open scoped BigOperators

namespace Cert.KernelIdeal.Attention

open Cert.KernelIdeal Cert.KernelIdeal.Gen Cert.KernelIdeal.GenP Idealize.ShloMosaic Idealize.ShloMosaic.TcCoe Idealize.SL.Sem
open Idealize.ShloMosaic.ValueIdx Cert.KernelIdeal.Tile
open Idealize.ShloMosaic.Pipeline (Dat)

/-- An `[8, 1024, 2048]` array read by coordinates. -/
def rowsOf (A : S8x1024x2048.Idx → EReal) : Cert.Attn.Act := fun b n d => A (ix3 b n d)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 32 grid points, and the point's two grid coordinates. -/
theorem index_facts : ∀ t : Fin cfg1.N,
    ((grid1.coords t) 1).val = t.val % 4
    ∧ win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val / 4 ∧ win1_4.index t (1 : Fin 3) = t.val % 4 ∧ win1_4.index t (2 : Fin 3) = 0
    ∧ win1_5.index t (0 : Fin 3) = t.val / 4 ∧ win1_5.index t (1 : Fin 3) = 0 ∧ win1_5.index t (2 : Fin 3) = t.val % 4 :=
  (by decide +kernel : ∀ t : Fin grid1.N, _)

/-- The key window's block at a point, at an entry. -/
theorem key_read (c : Dev nD) (t : Fin cfg1.N) (r : Fin 256) (d : Fin 2048) (bb : Fin 8) (nn : Fin 1024)
    (hb : bb.val = t.val / 4) (hn : nn.val = t.val % 4 * 256 + r.val) :
    iblk1 V c 0 t (ix3 (0 : Fin 1) r d) = V c main_v8 (ix3 bb nn d) := by
  obtain ⟨-, e0, e1, e2, -⟩ := index_facts t
  show V c main_v8 (((cfg1.win 0).blk t).view.emb (ix3 (0 : Fin 1) r d)) = V c main_v8 (ix3 bb nn d)
  refine congrArg (V c main_v8) (funext fun a => Fin.ext ?_)
  match a with
  | ⟨0, _⟩ => show win1_0.index t (0 : Fin 3) * 1 + 1 * 0 = bb.val; omega
  | ⟨1, _⟩ => show win1_0.index t (1 : Fin 3) * 256 + 1 * r.val = nn.val; omega
  | ⟨2, _⟩ => show win1_0.index t (2 : Fin 3) * 2048 + 1 * d.val = d.val; omega

/-- The query window's block is the whole batch. -/
theorem query_read (c : Dev nD) (t : Fin cfg1.N) (k : Fin 1024) (d : Fin 2048) (bb : Fin 8) (hb : bb.val = t.val / 4) :
    iblk1 V c 1 t (ix3 (0 : Fin 1) k d) = V c main_v9 (ix3 bb k d) := by
  obtain ⟨-, -, -, -, e0, e1, e2, -⟩ := index_facts t
  show V c main_v9 (((cfg1.win 1).blk t).view.emb (ix3 (0 : Fin 1) k d)) = V c main_v9 (ix3 bb k d)
  refine congrArg (V c main_v9) (funext fun a => Fin.ext ?_)
  match a with
  | ⟨0, _⟩ => show win1_1.index t (0 : Fin 3) * 1 + 1 * 0 = bb.val; omega
  | ⟨1, _⟩ => show win1_1.index t (1 : Fin 3) * 1024 + 1 * k.val = k.val; omega
  | ⟨2, _⟩ => show win1_1.index t (2 : Fin 3) * 2048 + 1 * d.val = d.val; omega

/-- So is the value window's. -/
theorem value_read (c : Dev nD) (t : Fin cfg1.N) (k : Fin 1024) (d : Fin 2048) (bb : Fin 8) (hb : bb.val = t.val / 4) :
    iblk1 V c 2 t (ix3 (0 : Fin 1) k d) = V c main_v10 (ix3 bb k d) := by
  obtain ⟨-, -, -, -, -, -, -, e0, e1, e2, -⟩ := index_facts t
  show V c main_v10 (((cfg1.win 2).blk t).view.emb (ix3 (0 : Fin 1) k d)) = V c main_v10 (ix3 bb k d)
  refine congrArg (V c main_v10) (funext fun a => Fin.ext ?_)
  match a with
  | ⟨0, _⟩ => show win1_2.index t (0 : Fin 3) * 1 + 1 * 0 = bb.val; omega
  | ⟨1, _⟩ => show win1_2.index t (1 : Fin 3) * 1024 + 1 * k.val = k.val; omega
  | ⟨2, _⟩ => show win1_2.index t (2 : Fin 3) * 2048 + 1 * d.val = d.val; omega

/-- The output weights' window is its whole array. -/
theorem wo_read (c : Dev nD) (t : Fin cfg1.N) (e d : Fin 2048) : iblk1 V c 3 t (ix2 e d) = V c main_v6 (ix2 e d) := by
  obtain ⟨-, -, -, -, -, -, -, -, -, -, e0, e1, -⟩ := index_facts t
  show V c main_v6 (((cfg1.win 3).blk t).view.emb (ix2 e d)) = V c main_v6 (ix2 e d)
  refine congrArg (V c main_v6) (funext fun a => Fin.ext ?_)
  match a with
  | ⟨0, _⟩ => show win1_3.index t (0 : Fin 2) * 2048 + 1 * e.val = e.val; omega
  | ⟨1, _⟩ => show win1_3.index t (1 : Fin 2) * 2048 + 1 * d.val = d.val; omega

/-- The tile's masked score is the specification's, at key row `n = 256 p + r`. -/
theorem score_eq (c : Dev nD) (t : Fin cfg1.N) (r : Fin 256) (k : Fin 1024) (bb : Fin 8) (nn : Fin 1024)
    (hb : bb.val = t.val / 4) (hn : nn.val = t.val % 4 * 256 + r.val) :
    tileScore ((grid1.coords t) 1).val (iblk1 V c 0 t) (iblk1 V c 1 t) r k
      = Cert.Attn.score (rowsOf (V c main_v8)) (rowsOf (V c main_v9)) bb k nn := by
  obtain ⟨hp, -⟩ := index_facts t
  unfold tileScore Cert.Attn.score rowsOf
  rw [hp]
  refine if_congr ⟨fun h => Fin.ext (by omega), fun h => by subst h; omega⟩ rfl (Finset.sum_congr rfl fun d _ => ?_)
  rw [key_read V c t r d bb nn hb hn, query_read V c t k d bb hb]
  exact mul_comm _ _

/-- WHAT POINT `t` WRITES BACK to the first result is its block of `outArr`. -/
theorem flushed4_eq (c : Dev nD) (t : Fin cfg1.N) :
    (dat1 V c).flushed 4 t = ((cfg1.win 4).blk t).view.read (Elt Ideal)
      (Cert.Attn.outArr (rowsOf (V c main_v8)) (rowsOf (V c main_v9)) (rowsOf (V c main_v10)) (V c main_v6)) := by
  show (cfg1.win 4).cut (grid1.coords t) ((dat1 V c).after 4 t) = _
  rw [after1_4]
  unfold out1_4
  rw [View.canon_unit_zero zeros3]
  simp only [View.ld_unit_zero (S := S1x256x2048) zeros3, View.ld_unit_zero (S := S1x1024x2048) zeros3, View.ld_unit_zero (S := S2048x2048) zeros2]
  obtain ⟨-, -, -, -, -, -, -, -, -, -, -, -, e0, e1, e2, -⟩ := index_facts t
  funext y
  obtain ⟨u, r, e, rfl⟩ : ∃ (u : Fin 1) (r : Fin 256) (e : Fin 2048), y = ix3 u r e := ⟨y 0, y 1, y 2, eq_ix3 y⟩
  obtain rfl : u = 0 := Subsingleton.elim _ _
  refine (out_apply (grid1.coords t) (iblk1 V c 0 t) (iblk1 V c 1 t) (iblk1 V c 2 t) (iblk1 V c 3 t) r e).trans ?_
  show _ = Cert.Attn.outArr _ _ _ _ (((cfg1.win 4).blk t).view.emb (ix3 (0 : Fin 1) r e))
  have hb : ((((cfg1.win 4).blk t).view.emb (ix3 (0 : Fin 1) r e)) 0).val = t.val / 4 := by
    show win1_4.index t (0 : Fin 3) * 1 + 1 * 0 = _; omega
  have hn : ((((cfg1.win 4).blk t).view.emb (ix3 (0 : Fin 1) r e)) 1).val = t.val % 4 * 256 + r.val := by
    show win1_4.index t (1 : Fin 3) * 256 + 1 * r.val = _; omega
  have he : ((((cfg1.win 4).blk t).view.emb (ix3 (0 : Fin 1) r e)) 2) = e := Fin.ext (by
    show win1_4.index t (2 : Fin 3) * 2048 + 1 * e.val = _; omega)
  unfold Cert.Attn.outArr Cert.Attn.out Cert.Attn.mixed Cert.Attn.weight
  refine Finset.sum_congr rfl fun d _ => ?_
  rw [wo_read V c t e d, he]
  refine congrArg (· * V c main_v6 (ix2 e d)) (Finset.sum_congr rfl fun j _ => ?_)
  rw [value_read V c t j d _ hb]
  refine congrArg (· * V c main_v10 (ix3 _ j d)) ?_
  exact congrArg (fun v => Cert.Attn.softmax v j) (funext fun k => score_eq V c t r k _ _ hb hn)

/-- WHAT POINT `t` WRITES BACK to the second result is its block of `weightArr`: the weights of key rows
    `256 p + r`, stored at column `256 p + r`. -/
theorem flushed5_eq (c : Dev nD) (t : Fin cfg1.N) :
    (dat1 V c).flushed 5 t = ((cfg1.win 5).blk t).view.read (Elt Ideal)
      (Cert.Attn.weightArr (rowsOf (V c main_v8)) (rowsOf (V c main_v9))) := by
  show (cfg1.win 5).cut (grid1.coords t) ((dat1 V c).after 5 t) = _
  rw [after1_5]
  unfold out1_5
  rw [View.canon_unit_zero zeros3]
  simp only [View.ld_unit_zero (S := S1x256x2048) zeros3, View.ld_unit_zero (S := S1x1024x2048) zeros3]
  obtain ⟨-, -, -, -, -, -, -, -, -, -, -, -, -, -, -, e0, e1, e2⟩ := index_facts t
  funext y
  obtain ⟨u, j, r, rfl⟩ : ∃ (u : Fin 1) (j : Fin 1024) (r : Fin 256), y = ix3 u j r := ⟨y 0, y 1, y 2, eq_ix3 y⟩
  obtain rfl : u = 0 := Subsingleton.elim _ _
  refine (stored_weights_apply (grid1.coords t) (iblk1 V c 0 t) (iblk1 V c 1 t) j r).trans ?_
  show _ = Cert.Attn.weightArr _ _ (((cfg1.win 5).blk t).view.emb (ix3 (0 : Fin 1) j r))
  have hb : ((((cfg1.win 5).blk t).view.emb (ix3 (0 : Fin 1) j r)) 0).val = t.val / 4 := by
    show win1_5.index t (0 : Fin 3) * 1 + 1 * 0 = _; omega
  have hj : ((((cfg1.win 5).blk t).view.emb (ix3 (0 : Fin 1) j r)) 1) = j := Fin.ext (by
    show win1_5.index t (1 : Fin 3) * 1024 + 1 * j.val = _; omega)
  have hn : ((((cfg1.win 5).blk t).view.emb (ix3 (0 : Fin 1) j r)) 2).val = t.val % 4 * 256 + r.val := by
    show win1_5.index t (2 : Fin 3) * 256 + 1 * r.val = _; omega
  unfold Cert.Attn.weightArr Cert.Attn.weight
  rw [hj]
  exact congrArg (fun v => Cert.Attn.softmax v j) (funext fun k => score_eq V c t r k _ _ hb hn)

/-- An index of the first result is in point `t`'s block iff each coordinate is in the block's range on its axis. -/
theorem mem_blk4 (t : Fin cfg1.N) (i : S8x1024x2048.Idx) :
    i ∈ ((cfg1.win 4).blk t).view.set ↔ ∀ a : Fin 3, win1_4.index t a * S1x256x2048.size a ≤ (i a).val ∧ (i a).val < win1_4.index t a * S1x256x2048.size a + S1x256x2048.size a := by
  show i ∈ ((View.whole main_v11_0).slice (win1_4.rect t)).set ↔ _
  rw [View.set_slice_whole, Rect.mem_set_unit]
  exact Iff.rfl
theorem mem_blk5 (t : Fin cfg1.N) (i : S8x1024x1024.Idx) :
    i ∈ ((cfg1.win 5).blk t).view.set ↔ ∀ a : Fin 3, win1_5.index t a * S1x1024x256.size a ≤ (i a).val ∧ (i a).val < win1_5.index t a * S1x1024x256.size a + S1x1024x256.size a := by
  show i ∈ ((View.whole main_v11_1).slice (win1_5.rect t)).set ↔ _
  rw [View.set_slice_whole, Rect.mem_set_unit]
  exact Iff.rfl

/-- Row `n` of batch `b` of the first result lies in the block of point `(b, n / 256)`. -/
theorem cover4 (i : S8x1024x2048.Idx) : ∃ t : Fin cfg1.N, (cfg1.win 4).flush t = true ∧ i ∈ ((cfg1.win 4).blk t).view.set := by
  have hi0 : (i 0).val < 8 := (i 0).isLt
  have hi1 : (i 1).val < 1024 := (i 1).isLt
  have hi2 : (i 2).val < 2048 := (i 2).isLt
  have ht : (i 0).val * 4 + (i 1).val / 256 < 32 := by omega
  refine ⟨⟨(i 0).val * 4 + (i 1).val / 256, ht⟩, flush1_4 _, ?_⟩
  rw [mem_blk4]
  obtain ⟨-, -, -, -, -, -, -, -, -, -, -, -, e0, e1, e2, -⟩ := index_facts ⟨(i 0).val * 4 + (i 1).val / 256, ht⟩
  simp only [] at e0 e1 e2
  intro a
  match a with
  | ⟨0, _⟩ => show win1_4.index _ (0 : Fin 3) * 1 ≤ (i 0).val ∧ (i 0).val < win1_4.index _ (0 : Fin 3) * 1 + 1; omega
  | ⟨1, _⟩ => show win1_4.index _ (1 : Fin 3) * 256 ≤ (i 1).val ∧ (i 1).val < win1_4.index _ (1 : Fin 3) * 256 + 256; omega
  | ⟨2, _⟩ => show win1_4.index _ (2 : Fin 3) * 2048 ≤ (i 2).val ∧ (i 2).val < win1_4.index _ (2 : Fin 3) * 2048 + 2048; omega

/-- Column `n` of batch `b` of the second result lies in the block of point `(b, n / 256)`. -/
theorem cover5 (i : S8x1024x1024.Idx) : ∃ t : Fin cfg1.N, (cfg1.win 5).flush t = true ∧ i ∈ ((cfg1.win 5).blk t).view.set := by
  have hi0 : (i 0).val < 8 := (i 0).isLt
  have hi1 : (i 1).val < 1024 := (i 1).isLt
  have hi2 : (i 2).val < 1024 := (i 2).isLt
  have ht : (i 0).val * 4 + (i 2).val / 256 < 32 := by omega
  refine ⟨⟨(i 0).val * 4 + (i 2).val / 256, ht⟩, flush1_5 _, ?_⟩
  rw [mem_blk5]
  obtain ⟨-, -, -, -, -, -, -, -, -, -, -, -, -, -, -, e0, e1, e2⟩ := index_facts ⟨(i 0).val * 4 + (i 2).val / 256, ht⟩
  simp only [] at e0 e1 e2
  intro a
  match a with
  | ⟨0, _⟩ => show win1_5.index _ (0 : Fin 3) * 1 ≤ (i 0).val ∧ (i 0).val < win1_5.index _ (0 : Fin 3) * 1 + 1; omega
  | ⟨1, _⟩ => show win1_5.index _ (1 : Fin 3) * 1024 ≤ (i 1).val ∧ (i 1).val < win1_5.index _ (1 : Fin 3) * 1024 + 1024; omega
  | ⟨2, _⟩ => show win1_5.index _ (2 : Fin 3) * 256 ≤ (i 2).val ∧ (i 2).val < win1_5.index _ (2 : Fin 3) * 256 + 256; omega

/-- THE TWO RESULT ARRAYS after the region, as functions of the arrays it finds. -/
theorem final4 (c : Dev nD) : (dat1 V c).arrAt 4 cfg1.N
    = Cert.Attn.outArr (rowsOf (V c main_v8)) (rowsOf (V c main_v9)) (rowsOf (V c main_v10)) (V c main_v6) :=
  (dat1 V c).arrAt_eq_of_cover 4 _ (fun t _ => flushed4_eq V c t) cover4
theorem final5 (c : Dev nD) : (dat1 V c).arrAt 5 cfg1.N
    = Cert.Attn.weightArr (rowsOf (V c main_v8)) (rowsOf (V c main_v9)) :=
  (dat1 V c).arrAt_eq_of_cover 5 _ (fun t _ => flushed5_eq V c t) cover5

end Cert.KernelIdeal.Attention

end
-- ==== Proof.Fold.lean ====
/-
  The arrays between the two regions, read back to the launch memory.

  Before the first region the host reshapes the input `[8, 1024, 2048]` to `[8192, 2048]`, changes the float format of the
  four weight matrices (the identity on the extended reals) and scales the query weights by the constant `0.1`; between
  the regions it reshapes the three projected `[8192, 2048]` arrays back to `[8, 1024, 2048]`.  A reshape keeps the
  row-major position: entry `(b, n, d)` of the one is entry `(1024 b + n, d)` of the other.  So the arrays the second region
  finds are the three projections of the launch arrays, `Cert.Attn.proj`, read by coordinates.
-/
import proofs.«105799_j61718680043981_2_alg».proof.Proof.KernelIdealFrame
import proofs.«105799_j61718680043981_2_alg».proof.Proof.Region0
import proofs.«105799_j61718680043981_2_alg».proof.Proof.Region1
import proofs.«105799_j61718680043981_2_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Fold

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Cert.KernelIdeal.Projections Cert.KernelIdeal.Attention

variable (m : (ℓ : Loc nD τ sig) → Buf (Elt Ideal) ℓ) (ρ : Dev nD → PrngReg)

/-- The launch contents of the five arguments, as plain functions of an index. -/
abbrev y (c : Dev nD) : S8x1024x2048.Idx → EReal := m ((c : Thread nD τ).loc main_arg0)
abbrev wk (c : Dev nD) : S2048x2048.Idx → EReal := m ((c : Thread nD τ).loc main_arg1)
abbrev wq (c : Dev nD) : S2048x2048.Idx → EReal := m ((c : Thread nD τ).loc main_arg2)
abbrev wv (c : Dev nD) : S2048x2048.Idx → EReal := m ((c : Thread nD τ).loc main_arg3)
abbrev wo (c : Dev nD) : S2048x2048.Idx → EReal := m ((c : Thread nD τ).loc main_arg4)
/-- The flattened input the first region finds. -/
abbrev flat (c : Dev nD) : S8192x2048.Idx → EReal := V1 m ρ c main_v0

/-- What the first region finds: the flattened input, -/
theorem entry_v0 (c : Dev nD) :
    V1 m ρ c main_v0 = shapeCast S8192x2048 (m ((c : Thread nD τ).loc main_arg0)) shapeCasts_S8x1024x2048_S8192x2048 := by
  dsimp only [V1, W1, W0, hostOps0]
  after_results
  try rfl
/-- the key weights, -/
theorem entry_v1 (c : Dev nD) : (V1 m ρ c main_v1 : S2048x2048.Idx → EReal) = wk m c := by
  dsimp only [V1, W1, W0, hostOps0]
  after_results
  try rfl
/-- the query weights times the scale, -/
theorem entry_v4 (c : Dev nD) : (V1 m ρ c main_v4 : S2048x2048.Idx → EReal) = fun i => wq m c i * Cert.Attn.scale := by
  dsimp only [V1, W1, W0, hostOps0]
  after_results
  try rfl
/-- the value weights, -/
theorem entry_v5 (c : Dev nD) : (V1 m ρ c main_v5 : S2048x2048.Idx → EReal) = wv m c := by
  dsimp only [V1, W1, W0, hostOps0]
  after_results
  try rfl
/-- and the output weights. -/
theorem entry_v6 (c : Dev nD) : (V1 m ρ c main_v6 : S2048x2048.Idx → EReal) = wo m c := by
  dsimp only [V1, W1, W0, hostOps0]
  after_results
  try rfl

/-- The flattened input at row `1024 b + n` is the input at `(b, n)`. -/
theorem flat_read (c : Dev nD) (b : Fin 8) (n : Fin 1024) (d : Fin 2048) (i0 : Fin 8192) (h : i0.val = b.val * 1024 + n.val) :
    flat m ρ c (ix2 i0 d) = y m c (ix3 b n d) := by
  show V1 m ρ c main_v0 (ix2 i0 d) = _
  rw [entry_v0]
  refine shapeCast_apply _ _ (ix2 i0 d) (ix3 b n d) ?_
  rw [Shape.rowMajor_val_three, Shape.rowMajor_val_two]
  show (b.val * 1024 + n.val) * 2048 + d.val = i0.val * 2048 + d.val
  rw [h]

/-- What the second region finds: each projected array, reshaped. -/
theorem mid_v8 (c : Dev nD) : V3 m ρ c main_v8
    = shapeCast S8x1024x2048 (rowsTimes (V1 m ρ c main_v0) (V1 m ρ c main_v1)) shapeCasts_S8192x2048_S8x1024x2048 := by
  have e : V3 m ρ c main_v8 = shapeCast S8x1024x2048 (W2 m ρ c (Proc.devRef .tc main_v7_0)) shapeCasts_S8192x2048_S8x1024x2048 := by
    dsimp only [V3, W3, hostOps1]
    after_results
    try rfl
  rw [e]
  exact congrArg (fun x => shapeCast S8x1024x2048 x shapeCasts_S8192x2048_S8x1024x2048) ((W2_arr m ρ c 4).trans (final4 (V1 m ρ) c))
theorem mid_v9 (c : Dev nD) : V3 m ρ c main_v9
    = shapeCast S8x1024x2048 (rowsTimes (V1 m ρ c main_v0) (V1 m ρ c main_v4)) shapeCasts_S8192x2048_S8x1024x2048 := by
  have e : V3 m ρ c main_v9 = shapeCast S8x1024x2048 (W2 m ρ c (Proc.devRef .tc main_v7_1)) shapeCasts_S8192x2048_S8x1024x2048 := by
    dsimp only [V3, W3, hostOps1]
    after_results
    try rfl
  rw [e]
  exact congrArg (fun x => shapeCast S8x1024x2048 x shapeCasts_S8192x2048_S8x1024x2048) ((W2_arr m ρ c 5).trans (final5 (V1 m ρ) c))
theorem mid_v10 (c : Dev nD) : V3 m ρ c main_v10
    = shapeCast S8x1024x2048 (rowsTimes (V1 m ρ c main_v0) (V1 m ρ c main_v5)) shapeCasts_S8192x2048_S8x1024x2048 := by
  have e : V3 m ρ c main_v10 = shapeCast S8x1024x2048 (W2 m ρ c (Proc.devRef .tc main_v7_2)) shapeCasts_S8192x2048_S8x1024x2048 := by
    dsimp only [V3, W3, hostOps1]
    after_results
    try rfl
  rw [e]
  exact congrArg (fun x => shapeCast S8x1024x2048 x shapeCasts_S8192x2048_S8x1024x2048) ((W2_arr m ρ c 6).trans (final6 (V1 m ρ) c))
/-- The output weights pass the first region and the reshapes untouched. -/
theorem mid_v6 (c : Dev nD) : V3 m ρ c main_v6 = V1 m ρ c main_v6 := by
  have e : V3 m ρ c main_v6 = W2 m ρ c (Proc.devRef .tc main_v6) := by
    dsimp only [V3, W3, hostOps1]
    after_results
    try rfl
  rw [e]
  exact W2_of_ne m ρ c main_v6 (by decide)

/-- A projected array, reshaped, read by coordinates: a projection of the launch arrays. -/
theorem proj_read (c : Dev nD) (W : S2048x2048.Idx → EReal) (A : S8192x2048.Idx → EReal)
    (hA : ∀ (i0 : Fin 8192) (e : Fin 2048), A (ix2 i0 e) = ∑ d : Fin 2048, flat m ρ c (ix2 i0 d) * W (ix2 e d)) :
    rowsOf (shapeCast S8x1024x2048 A shapeCasts_S8192x2048_S8x1024x2048) = Cert.Attn.proj (y m c) W := by
  funext b n e
  have hb := b.isLt
  have hn := n.isLt
  unfold rowsOf Cert.Attn.proj
  refine (shapeCast_apply A _ (ix3 b n e) (ix2 (⟨b.val * 1024 + n.val, by omega⟩ : Fin 8192) e) ?_).trans ?_
  · rw [Shape.rowMajor_val_three, Shape.rowMajor_val_two]
    rfl
  · rw [hA]
    exact Finset.sum_congr rfl fun d _ => congrArg (· * W (ix2 e d)) (flat_read m ρ c b n d _ rfl)

theorem rowsTimes_apply (A : S8192x2048.Idx → EReal) (W : S2048x2048.Idx → EReal) (i0 : Fin 8192) (e : Fin 2048) :
    rowsTimes A W (ix2 i0 e) = ∑ d : Fin 2048, A (ix2 i0 d) * W (ix2 e d) := rfl

/-- THE THREE PROJECTIONS the second region finds. -/
theorem keys_eq (c : Dev nD) : rowsOf (V3 m ρ c main_v8) = Cert.Attn.proj (y m c) (wk m c) := by
  rw [mid_v8, entry_v1]
  exact proj_read m ρ c _ _ fun i0 e => rowsTimes_apply _ _ i0 e
theorem queries_eq (c : Dev nD) : rowsOf (V3 m ρ c main_v9) = Cert.Attn.proj (y m c) (fun i => wq m c i * Cert.Attn.scale) := by
  rw [mid_v9, entry_v4]
  exact proj_read m ρ c _ _ fun i0 e => rowsTimes_apply _ _ i0 e
theorem values_eq (c : Dev nD) : rowsOf (V3 m ρ c main_v10) = Cert.Attn.proj (y m c) (wv m c) := by
  rw [mid_v10, entry_v5]
  exact proj_read m ρ c _ _ fun i0 e => rowsTimes_apply _ _ i0 e
theorem wo_eq (c : Dev nD) : (V3 m ρ c main_v6 : S2048x2048.Idx → EReal) = wo m c := by
  rw [mid_v6, entry_v6]

/-- THE KERNEL'S TWO RESULT ARRAYS as functions of the launch arrays. -/
theorem result0 (c : Dev nD) : (dat1 (V3 m ρ) c).arrAt 4 cfg1.N
    = Cert.Attn.outArr (Cert.Attn.proj (y m c) (wk m c)) (Cert.Attn.proj (y m c) (fun i => wq m c i * Cert.Attn.scale))
        (Cert.Attn.proj (y m c) (wv m c)) (wo m c) := by
  rw [Attention.final4 (V3 m ρ) c, keys_eq, queries_eq, values_eq, wo_eq]
theorem result1 (c : Dev nD) : (dat1 (V3 m ρ) c).arrAt 5 cfg1.N
    = Cert.Attn.weightArr (Cert.Attn.proj (y m c) (wk m c)) (Cert.Attn.proj (y m c) (fun i => wq m c i * Cert.Attn.scale)) := by
  rw [Attention.final5 (V3 m ρ) c, keys_eq, queries_eq]

end Cert.KernelIdeal.Fold

end
-- ==== Proof.RefValueA.lean ====
/-
  The reference program's masked score matrix, read index by index.

  For a batch `b` and rows `i`, `j` the reference computes
    * the key projection `K[b,n,e] = ∑ d, y[b,n,d] · Wk[e,d]`, and likewise the value projection with `Wv`;
    * the query projection scaled on the left, `Q[b,n,e] = s · ∑ d, y[b,n,d] · Wq[e,d]`, with `s` the word of `0.1`;
    * the score `∑ d, Q[b,i,d] · K[b,j,d]` at `(b, i, j)`, replaced by `-∞` where the two integer counters agree,
      that is where `i = j` (both counters are below `2 ^ 32`, so the 32-bit words agree exactly when the rows do).
  These are the terms `Cert.Attn.proj` and `Cert.Attn.score` of the specification.
-/
import proofs.«105799_j61718680043981_2_alg».proof.Proof.Gen.ReferenceIdeal.Read
import proofs.«105799_j61718680043981_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The input array's type, as the stages take it. -/
abbrev Act3 := (⟨S8x1024x2048, .f32⟩ : BufTy).Contents (Elt Ideal)
/-- A weight matrix's type, as the stages take it. -/
abbrev Mat := (⟨S2048x2048, .f32⟩ : BufTy).Contents (Elt Ideal)

/-- The word `0xFF800000` is `-∞`. -/
theorem ofBits_neg_inf : Ideal.ofBits .f32 0xFF800000#32 = (⊥ : EReal) := by
  simp [Ideal.ofBits, Ideal.ieee]

/-- The query projection scaled by the constant, as a function of coordinates. -/
abbrev Qs (x0 : Act3) (x2 : Mat) : Attn.Act := fun b n e => Attn.scale * Attn.proj x0 x2 b n e

/-- The key projection at `(b, n, e)`. -/
theorem v0_read (x0 : Act3) (x1 : Mat) (b : Fin 8) (n : Fin 1024) (e : Fin 2048) :
    val_main_v0 (F := Ideal) x0 x1 (ix3 b n e) = Attn.proj x0 x1 b n e := by
  rw [val_main_v0_apply]
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix2 e k :=
    funext fun a => Fin.ext (by match a with | ⟨0, _⟩ => rfl | ⟨1, _⟩ => rfl)
  rw [el, er]

/-- The unscaled query projection at `(b, n, e)`. -/
theorem v1_read (x0 : Act3) (x2 : Mat) (b : Fin 8) (n : Fin 1024) (e : Fin 2048) :
    val_main_v1 (F := Ideal) x0 x2 (ix3 b n e) = Attn.proj x0 x2 b n e := by
  rw [val_main_v1_apply]
  refine Finset.sum_congr rfl fun k _ => ?_
  have el : lidx_main_v1 (ix3 b n e) k = ix3 b n k :=
    funext fun a => Fin.ext (by match a with | ⟨0, _⟩ => rfl | ⟨1, _⟩ => rfl | ⟨2, _⟩ => rfl)
  have er : ridx_main_v1 (ix3 b n e) k = ix2 e k :=
    funext fun a => Fin.ext (by match a with | ⟨0, _⟩ => rfl | ⟨1, _⟩ => rfl)
  rw [el, er]

/-- The value projection at `(b, n, e)`. -/
theorem v4_read (x0 : Act3) (x3 : Mat) (b : Fin 8) (n : Fin 1024) (e : Fin 2048) :
    val_main_v4 (F := Ideal) x0 x3 (ix3 b n e) = Attn.proj x0 x3 b n e := by
  rw [val_main_v4_apply]
  refine Finset.sum_congr rfl fun k _ => ?_
  have el : lidx_main_v4 (ix3 b n e) k = ix3 b n k :=
    funext fun a => Fin.ext (by match a with | ⟨0, _⟩ => rfl | ⟨1, _⟩ => rfl | ⟨2, _⟩ => rfl)
  have er : ridx_main_v4 (ix3 b n e) k = ix2 e k :=
    funext fun a => Fin.ext (by match a with | ⟨0, _⟩ => rfl | ⟨1, _⟩ => rfl)
  rw [el, er]

/-- The scaled query projection at `(b, n, e)`: the constant stands on the left of the product. -/
theorem v3_read (x0 : Act3) (x2 : Mat) (b : Fin 8) (n : Fin 1024) (e : Fin 2048) :
    val_main_v3 (F := Ideal) x0 x2 (ix3 b n e) = Qs x0 x2 b n e := by
  rw [val_main_v3_apply, val_main_v2_apply, val_main_cst_apply, v1_read]
  rfl

/-- The unmasked score at `(b, i, j)`: query row `i` against key row `j`. -/
theorem v5_read (x0 : Act3) (x1 x2 : Mat) (b : Fin 8) (i j : Fin 1024) :
    val_main_v5 (F := Ideal) x0 x1 x2 (ix3 b i j) = ∑ d : Fin 2048, Qs x0 x2 b i d * Attn.proj x0 x1 b j d := by
  rw [val_main_v5_apply]
  refine Finset.sum_congr rfl fun k _ => ?_
  have el : lidx_main_v5 (ix3 b i j) k = ix3 b i k :=
    funext fun a => Fin.ext (by match a with | ⟨0, _⟩ => rfl | ⟨1, _⟩ => rfl | ⟨2, _⟩ => rfl)
  have er : ridx_main_v5 (ix3 b i j) k = ix3 b j k :=
    funext fun a => Fin.ext (by match a with | ⟨0, _⟩ => rfl | ⟨1, _⟩ => rfl | ⟨2, _⟩ => rfl)
  rw [el, er, v3_read, v0_read]

/-- Two row counters below `1024`, as 32-bit words, the first with the zero word added: the comparison's word is `1`
    exactly when the rows are equal. -/
theorem mask_word (i j : Fin 1024) :
    IntOp.cmpi .eq (IntOp.addi (BitVec.ofNat 32 i.val) 0#32) (BitVec.ofNat 32 j.val) = if i = j then 1#1 else 0#1 := by
  unfold IntOp.cmpi IntOp.addi
  rw [BitVec.add_zero]
  by_cases h : i = j
  · subst h; simp
  · rw [if_neg h]
    have hne : ¬ (BitVec.ofNat 32 i.val = BitVec.ofNat 32 j.val) := by
      intro e
      have e' := congrArg BitVec.toNat e
      simp only [BitVec.toNat_ofNat] at e'
      have hi := i.isLt
      have hj := j.isLt
      rw [Nat.mod_eq_of_lt (by omega), Nat.mod_eq_of_lt (by omega)] at e'
      exact h (Fin.ext e')
    rw [beq_eq_false_iff_ne.mpr hne]
    rfl

/-- The mask at `(b, i, j)`: the diagonal `i = j`, whatever the batch. -/
theorem mask_read (b : Fin 8) (i j : Fin 1024) :
    val_main_call0_v1 (F := Ideal) (ix3 b i j) = if i = j then 1#1 else 0#1 := by
  rw [val_main_call0_v1_apply, val_main_v11_apply, val_main_v10_apply, val_main_v9_apply, val_main_v6_apply,
    val_main_v7_apply, val_main_v8_apply, val_main_c_apply]
  exact mask_word i j

/-- The value written on the diagonal is `-∞`. -/
theorem fill_read (i : S8x1024x1024.Idx) : val_main_call0_v2 (F := Ideal) i = (⊥ : EReal) := by
  rw [val_main_call0_v2_apply, val_main_call0_v0_apply, val_main_cst_0_apply]
  exact ofBits_neg_inf

/-- The masked score at `(b, i, j)` is the specification's. -/
theorem v12_read (x0 : Act3) (x1 x2 : Mat) (b : Fin 8) (i j : Fin 1024) :
    val_main_v12 (F := Ideal) x0 x1 x2 (ix3 b i j) = Attn.score (Attn.proj x0 x1) (Qs x0 x2) b i j := by
  rw [val_main_v12_apply, mask_read, fill_read, v5_read]
  unfold Attn.score
  by_cases h : i = j
  · rw [if_pos h, if_pos h]; exact select_one _ _
  · rw [if_neg h, if_neg h]; exact select_zero _ _

end Cert.ReferenceIdeal.RefValue

end
-- ==== Proof.RefValueB.lean ====
/-
  The reference program's softmax over the FIRST row axis of the masked score matrix, read index by index.

  For a fixed batch `b` and key row `j` write `s k` for the masked score of query row `k` against key row `j`. The
  reference takes the maximum `M` of the `s k` over all `k` (a fold of `max` from `-∞`; the further `max` with a constant
  `-∞` changes nothing), subtracts it, exponentiates, sums the exponentials over `k` (from the zero word), and
  divides: the entry at `(b, i, j)` is `exp (s i - M) / ∑ k, exp (s k - M)`, the specification's `Cert.Attn.weight`.
-/
import proofs.«105799_j61718680043981_2_alg».proof.Proof.RefValueA
import Idealize.ShloMosaic.PureOps.Reduce

noncomputable section

open scoped BigOperators

namespace Cert.ReferenceIdeal.RefValue

open Cert.ReferenceIdeal Cert.ReferenceIdeal.Read Idealize.ShloMosaic Idealize.ShloMosaic.ValueIdx

/-- Column `j` of batch `b`'s masked scores, as a function of the query row. -/
abbrev Sc (x0 : Act3) (x1 x2 : Mat) (b : Fin 8) (j : Fin 1024) : Fin 1024 → EReal :=
  fun k => Attn.score (Attn.proj x0 x1) (Qs x0 x2) b k j

/-- That column's maximum. -/
abbrev Mx (x0 : Act3) (x1 x2 : Mat) (b : Fin 8) (j : Fin 1024) : EReal :=
  (Finset.univ : Finset (Fin 1024)).fold max ⊥ (Sc x0 x1 x2 b j)

/-- The maximum over the query rows, at `(b, j)`: the fold of `max` from `-∞` over the inserted coordinate. -/
theorem v13_read (x0 : Act3) (x1 x2 : Mat) (b : Fin 8) (j : Fin 1024) :
    val_main_v13 (F := Ideal) x0 x1 x2 (ix2 b j) = Mx x0 x1 x2 b j := by
  unfold val_main_v13
  have h : S8x1024x1024.Reduces [1] S8x1024 := by decide
  refine (Host.reduce_eq_fold_single (FloatOps.maximumf (F := Ideal) (φ := .f32)) _ _ _ h _ (ix2 b j)).trans ?_
  have e : (val_main_v12 (F := Ideal) x0 x1 x2 ∘ h.lift (ix2 b j)) = Sc x0 x1 x2 b j := funext fun (k : Fin 1024) => by
    show val_main_v12 (F := Ideal) x0 x1 x2 (h.lift (ix2 b j) k) = _
    have el : h.lift (ix2 b j) k = ix3 b k j :=
      funext fun a => Fin.ext (by match a with | ⟨0, _⟩ => rfl | ⟨1, _⟩ => rfl | ⟨2, _⟩ => rfl)
    rw [el]
    exact v12_read x0 x1 x2 b k j
  rw [e, val_main_cst_1_apply]
  exact congrArg (fun z => (Finset.univ : Finset (Fin 1024)).fold max z (Sc x0 x1 x2 b j)) ofBits_neg_inf

/-- The further maximum with the constant `-∞` is the same value. -/
theorem v15_read (x0 : Act3) (x1 x2 : Mat) (b : Fin 8) (j : Fin 1024) :
    val_main_v15 (F := Ideal) x0 x1 x2 (ix2 b j) = Mx x0 x1 x2 b j := by
  rw [val_main_v15_apply, val_main_v14_apply, val_main_cst_2_apply, v13_read]
  show max (Ideal.ofBits .f32 0xFF800000#32) _ = _
  rw [ofBits_neg_inf]
  exact max_eq_right bot_le

/-- The maximum broadcast back over the query rows. -/
theorem v17_read (x0 : Act3) (x1 x2 : Mat) (b : Fin 8) (i j : Fin 1024) :
    val_main_v17 (F := Ideal) x0 x1 x2 (ix3 b i j) = Mx x0 x1 x2 b j := by
  rw [val_main_v17_apply, val_main_v16_apply]
  have e : idx_main_v16 (idx_main_v17 (ix3 b i j)) = ix2 b j :=
    funext fun a => Fin.ext (by match a with | ⟨0, _⟩ => rfl | ⟨1, _⟩ => rfl)
  rw [e, v15_read]

/-- The shifted score, exponentiated. -/
theorem v19_read (x0 : Act3) (x1 x2 : Mat) (b : Fin 8) (i j : Fin 1024) :
    val_main_v19 (F := Ideal) x0 x1 x2 (ix3 b i j) = Ideal.exp (Sc x0 x1 x2 b j i - Mx x0 x1 x2 b j) := by
  rw [val_main_v19_apply, val_main_v18_apply, v12_read, v17_read]
  rfl

/-- The sum of the exponentials over the query rows, at `(b, j)`. -/
theorem v20_read (x0 : Act3) (x1 x2 : Mat) (b : Fin 8) (j : Fin 1024) :
    val_main_v20 (F := Ideal) x0 x1 x2 (ix2 b j) = ∑ k : Fin 1024, Ideal.exp (Sc x0 x1 x2 b j k - Mx x0 x1 x2 b j) := by
  rw [val_main_v20_apply, val_main_cst_3_apply]
  show Ideal.ofBits .f32 0x00000000#32 + _ = _
  rw [Ideal.ofBits_zero_f32, zero_add]
  refine Finset.sum_congr rfl fun k _ => ?_
  have e : idx_main_v20 (ix2 b j) k = ix3 b k j :=
    funext fun a => Fin.ext (by match a with | ⟨0, _⟩ => rfl | ⟨1, _⟩ => rfl | ⟨2, _⟩ => rfl)
  rw [e, v19_read]

/-- The sum broadcast back over the query rows. -/
theorem v22_read (x0 : Act3) (x1 x2 : Mat) (b : Fin 8) (i j : Fin 1024) :
    val_main_v22 (F := Ideal) x0 x1 x2 (ix3 b i j) = ∑ k : Fin 1024, Ideal.exp (Sc x0 x1 x2 b j k - Mx x0 x1 x2 b j) := by
  rw [val_main_v22_apply, val_main_v21_apply]
  have e : idx_main_v21 (idx_main_v22 (ix3 b i j)) = ix2 b j :=
    funext fun a => Fin.ext (by match a with | ⟨0, _⟩ => rfl | ⟨1, _⟩ => rfl)
  rw [e, v20_read]

/-- The attention weight at `(b, i, j)`: query row `i`'s share of key row `j`'s column. -/
theorem v23_read (x0 : Act3) (x1 x2 : Mat) (b : Fin 8) (i j : Fin 1024) :
    val_main_v23 (F := Ideal) x0 x1 x2 (ix3 b i j) = Attn.weight (Attn.proj x0 x1) (Qs x0 x2) b i j := by
  rw [val_main_v23_apply, v19_read, v22_read]
  rfl

end Cert.ReferenceIdeal.RefValue

end
-- ==== Proof.RefValue.lean ====
/-
  The reference program is the specification: its two results, index by index.

  With the attention weights read (the column softmax of the masked scores), the reference's last two contractions are
    * `∑ j, w[b,j,n] · V[b,j,d]` — the weights' FIRST row axis is contracted against the value rows, so output row `n`
      mixes the value rows by column `n`'s weights: the specification's `mixed`;
    * `∑ d, mixed[b,n,d] · Wo[e,d]`: the specification's `out`.
  So the first result array is `Cert.Attn.outArr` and the second, the weights themselves, `Cert.Attn.weightArr`, both
  of the key projection, the query projection scaled on the left by the constant, and the value projection.
-/
import proofs.«105799_j61718680043981_2_alg».proof.Proof.Gen.ReferenceIdeal.Read
import proofs.«105799_j61718680043981_2_alg».proof.Proof.Spec
import proofs.«105799_j61718680043981_2_alg».proof.Proof.RefValueA
import proofs.«105799_j61718680043981_2_alg».proof.Proof.RefValueB
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Read Idealize.ShloMosaic Idealize.ShloMosaic.ValueIdx
open Idealize.ShloMosaic.TcCoe Idealize.SL.Sem

/-- The value rows mixed by column `n`'s weights, at `(b, n, d)`. -/
theorem v24_read (x0 : Act3) (x1 x2 x3 : Mat) (b : Fin 8) (n : Fin 1024) (d : Fin 2048) :
    val_main_v24 (F := Ideal) x0 x1 x2 x3 (ix3 b n d)
      = Attn.mixed (Attn.proj x0 x1) (Qs x0 x2) (Attn.proj x0 x3) b n d := by
  rw [val_main_v24_apply]
  refine Finset.sum_congr rfl fun k _ => ?_
  have el : lidx_main_v24 (ix3 b n d) k = ix3 b k n :=
    funext fun a => Fin.ext (by match a with | ⟨0, _⟩ => rfl | ⟨1, _⟩ => rfl | ⟨2, _⟩ => rfl)
  have er : ridx_main_v24 (ix3 b n d) k = ix3 b k d :=
    funext fun a => Fin.ext (by match a with | ⟨0, _⟩ => rfl | ⟨1, _⟩ => rfl | ⟨2, _⟩ => rfl)
  rw [el, er, v23_read, v4_read]

/-- The output row at `(b, n, e)`. -/
theorem v25_read (x0 : Act3) (x1 x2 x3 x4 : Mat) (b : Fin 8) (n : Fin 1024) (e : Fin 2048) :
    val_main_v25 (F := Ideal) x0 x1 x2 x3 x4 (ix3 b n e)
      = Attn.out (Attn.proj x0 x1) (Qs x0 x2) (Attn.proj x0 x3) x4 b n e := by
  rw [val_main_v25_apply]
  refine Finset.sum_congr rfl fun k _ => ?_
  have el : lidx_main_v25 (ix3 b n e) k = ix3 b n k :=
    funext fun a => Fin.ext (by match a with | ⟨0, _⟩ => rfl | ⟨1, _⟩ => rfl | ⟨2, _⟩ => rfl)
  have er : ridx_main_v25 (ix3 b n e) k = ix2 e k :=
    funext fun a => Fin.ext (by match a with | ⟨0, _⟩ => rfl | ⟨1, _⟩ => rfl)
  rw [el, er, v24_read]

/-- The reference's first result is the specification's output array. -/
theorem res_out0_eq (m : (ℓ : Loc nD τ sig) → Buf (Elt Ideal) ℓ) (c : Dev nD) :
    Cert.ReferenceIdeal.Value.res_out0 (F := Ideal) m c
      = Attn.outArr (Attn.proj (m ((c.tc : Thread nD τ).loc main_arg0)) (m ((c.tc : Thread nD τ).loc main_arg1)))
          (fun b n e => Attn.scale * Attn.proj (m ((c.tc : Thread nD τ).loc main_arg0)) (m ((c.tc : Thread nD τ).loc main_arg2)) b n e)
          (Attn.proj (m ((c.tc : Thread nD τ).loc main_arg0)) (m ((c.tc : Thread nD τ).loc main_arg3)))
          (m ((c.tc : Thread nD τ).loc main_arg4)) := by
  refine (val_main_v25_eq (F := Ideal) m c).trans ?_
  funext i
  obtain ⟨b, n, e, rfl⟩ : ∃ (b : Fin 8) (n : Fin 1024) (e : Fin 2048), i = ix3 b n e := ⟨i 0, i 1, i 2, eq_ix3 i⟩
  exact v25_read _ _ _ _ _ b n e

/-- The reference's second result is the specification's array of attention weights. -/
theorem res_out1_eq (m : (ℓ : Loc nD τ sig) → Buf (Elt Ideal) ℓ) (c : Dev nD) :
    Cert.ReferenceIdeal.Value.res_out1 (F := Ideal) m c
      = Attn.weightArr (Attn.proj (m ((c.tc : Thread nD τ).loc main_arg0)) (m ((c.tc : Thread nD τ).loc main_arg1)))
          (fun b n e => Attn.scale * Attn.proj (m ((c.tc : Thread nD τ).loc main_arg0)) (m ((c.tc : Thread nD τ).loc main_arg2)) b n e) := by
  refine (val_main_v23_eq (F := Ideal) m c).trans ?_
  funext i
  obtain ⟨b, p, q, rfl⟩ : ∃ (b : Fin 8) (p q : Fin 1024), i = ix3 b p q := ⟨i 0, i 1, i 2, eq_ix3 i⟩
  exact v23_read _ _ _ b p q

end Cert.ReferenceIdeal.RefValue

end
-- ==== Proof.Finite.lean ====
/-
  From the precondition to finiteness: every entry of the input array and of the query weight matrix is a real number.

  The precondition is the conjunction, over the five argument arrays, of "every entry `x` has `|x| < +∞`", each
  conjunct a reduction by `and` of the entrywise comparisons into one word, and the whole required to be the word `1`.
  A conjunction of one-bit words is `1` only if each is; a reduction by `and` into a single word is `1` only if every
  entry's comparison is `1`; and on the extended reals `max x (-x) < +∞` excludes both infinities (for `x = -∞` the
  maximum is `+∞` itself), leaving a real number.
-/
import proofs.«105799_j61718680043981_2_alg».proof.Pre_finite_inputs
import proofs.«105799_j61718680043981_2_alg».proof.Proof.Gen.Pre_finite_inputs
import Idealize.ShloMosaic.Lib.ReduceAll
import Idealize.ShloMosaic.Lib.ValueIdx
import Idealize.ShloMosaic.PureOps.Ideal

noncomputable section

namespace Cert.Attn

open Idealize.ShloMosaic

/-- The scalar shape has one index. -/
instance subsingleton_scalar_idx : Subsingleton Cert.Pre_finite_inputs.S_.Idx := ⟨fun a b => funext fun d => d.elim0⟩

/-- The word `0x7F800000` is `+∞`. -/
theorem ofBits_pos_inf : Ideal.ofBits .f32 0x7F800000#32 = (⊤ : EReal) := by
  simp [Ideal.ofBits, Ideal.ieee]

/-- An extended real whose absolute value compares below `+∞` is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_pos_inf] at h
  induction x using EReal.rec with
  | bot => exact absurd h (by simp [Ideal.cmp])
  | coe r => exact ⟨r, rfl⟩
  | top => exact absurd h (by simp [Ideal.cmp])

/-- Under the precondition every entry of the input array and of the query weight matrix is a real number. -/
theorem finite_of_pre [Cert.Pre_finite_inputs.Facts] (a0 : FVec Ideal Cert.Pre_finite_inputs.S8x1024x2048 .f32)
    (a1 a2 a3 a4 : FVec Ideal Cert.Pre_finite_inputs.S2048x2048 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) := by
  have e := congrFun h ValueIdx.ix0
  dsimp only [Cert.Pre_finite_inputs.fn, Cert.Pre_finite_inputs.fn_part1] at e
  change IntOp.andi (IntOp.andi (IntOp.andi (IntOp.andi _ _) _) _) _ = 1#1 at e
  simp only [IntOp.andi_eq_one] at e
  obtain ⟨⟨⟨⟨h0, -⟩, h2⟩, -⟩, -⟩ := e
  refine ⟨fun i => real_of_abs_lt_inf _ ?_, fun i => real_of_abs_lt_inf _ ?_⟩
  · exact Host.reduce_andi_all _ _ _ _ _ h0 i
  · exact Host.reduce_andi_all _ _ _ _ _ h2 i

end Cert.Attn

end
-- ==== Proof.lean ====
/-
  Self-attention with the softmax over the first score axis: a two-region Pallas kernel against its jnp reference, equal
  at the extended reals.

  The kernel projects the input to keys, queries and values in one region (the query weights pre-scaled by `0.1` on the
  host), and in a second region, 256 key rows at a time, forms the masked scores, normalises each key row's scores over
  all query rows, mixes the value rows and applies the output weights; it stores the mixed rows and the transposed
  weights.  The reference projects, scales the projected queries by `0.1`, masks the diagonal with `-∞`, takes the softmax
  over the first score axis, mixes and applies the output weights.
  Both end at the specification's two functions of the five argument arrays (`Cert.Attn.outArr`, `Cert.Attn.weightArr`):
  the kernel's side is read off its frame run block by block (`Region0`, `Tile`, `Region1`, `Fold`), the reference's
  off its run one operation at a time (`RefValue`).  The two differ only in where the scale enters the query projection;
  on finite inputs — the claim's precondition (`Finite`) — scaling the weights scales the projection (`proj_scale`).
  The kernel's finite stand-in for `-∞` in the mask is the named constant `neg_big`, read `-∞` at the extended reals.
-/
import proofs.«105799_j61718680043981_2_alg».proof.Defs
import proofs.«105799_j61718680043981_2_alg».proof.Proof.Gen.Kernel
import proofs.«105799_j61718680043981_2_alg».proof.Proof.KernelFrame
import proofs.«105799_j61718680043981_2_alg».proof.Proof.Gen.KernelIdeal
import proofs.«105799_j61718680043981_2_alg».proof.Proof.KernelIdealFrame
import proofs.«105799_j61718680043981_2_alg».proof.Proof.Gen.ReferenceIdeal
import proofs.«105799_j61718680043981_2_alg».proof.Proof.Gen.ReferenceIdeal.Run
import proofs.«105799_j61718680043981_2_alg».proof.Proof.Gen.Pre_finite_inputs
import proofs.«105799_j61718680043981_2_alg».proof.Proof.Spec
import proofs.«105799_j61718680043981_2_alg».proof.Proof.KernelRun
import proofs.«105799_j61718680043981_2_alg».proof.Proof.Fold
import proofs.«105799_j61718680043981_2_alg».proof.Proof.RefValue
import proofs.«105799_j61718680043981_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ledger's one entry: the table gives `neg_big` the value `-∞`. -/
theorem preserves : Cert.preserves_Kernel_KernelIdeal :=
  IdealRules.named_const.statement Cert.KernelIdeal.κ "neg_big" .f32 0xFF333332#32 ⊥ rfl

open Cert.KernelIdeal in
/-- The idealized kernel's run on finite inputs: the two results at the specification's functions of the launch arrays,
    the queries' scale moved from the weights to the projected rows. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v11_0)
        = Cert.Attn.outArr (Cert.Attn.proj (m ((c.tc : Thread nD τ).loc main_arg0)) (m ((c.tc : Thread nD τ).loc main_arg1)))
            (fun b n e => Cert.Attn.scale * Cert.Attn.proj (m ((c.tc : Thread nD τ).loc main_arg0)) (m ((c.tc : Thread nD τ).loc main_arg2)) b n e)
            (Cert.Attn.proj (m ((c.tc : Thread nD τ).loc main_arg0)) (m ((c.tc : Thread nD τ).loc main_arg3)))
            (m ((c.tc : Thread nD τ).loc main_arg4))
      ∧ r.2.mem ((c.tc : Thread nD τ).loc main_v11_1)
        = Cert.Attn.weightArr (Cert.Attn.proj (m ((c.tc : Thread nD τ).loc main_arg0)) (m ((c.tc : Thread nD τ).loc main_arg1)))
            (fun b n e => Cert.Attn.scale * Cert.Attn.proj (m ((c.tc : Thread nD τ).loc main_arg0)) (m ((c.tc : Thread nD τ).loc main_arg2)) b n e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
      obtain ⟨hy, hW⟩ := Cert.Attn.finite_of_pre _ _ _ _ _ (hpre c)
      have hq := Cert.Attn.proj_scale _ _ hy hW
      refine ⟨(h c).1.trans ((Cert.KernelIdeal.Fold.result0 m ρ c).trans ?_), (h c).2.1.trans ((Cert.KernelIdeal.Fold.result1 m ρ c).trans ?_), (h c).2.2⟩
      · rw [hq]
      · rw [hq])
    (Cert.KernelIdeal.Run.run_named (F := Ideal) m ρ)

/-- From memories agreeing on the arguments both programs end with equal results: the specification's two functions of the
    shared arguments. -/
theorem algebraic : Cert.algebraic_KernelIdeal_ReferenceIdeal := by
  intro m ρ m' ρ' hpre hagree
  refine ⟨_, _, kernel_run m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.res_out0_eq m' c).trans ?_
    rw [(hagree c).1, (hagree c).2.1, (hagree c).2.2.1, (hagree c).2.2.2.1, (hagree c).2.2.2.2]
  · refine (Cert.ReferenceIdeal.RefValue.res_out1_eq m' c).trans ?_
    rw [(hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
